-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x14x14x30 : Shape := ⟨4, ![4096, 14, 14, 30]⟩
abbrev S_ : Shape := ⟨0, ![]⟩

class Facts : Prop where
  bcast_S_S4096x14x14x30 : S_.BroadcastsInDim S4096x14x14x30 (![] : Fin 0 → Fin S4096x14x14x30.rank)
  reducesTo_S4096x14x14x30_S_d0_1_2_3 : S4096x14x14x30.ReducesTo [0, 1, 2, 3] S_
  h_S_ : 0 < S_.numel

variable [Facts]

def fn {F : FTy → Type} [FloatOps F] (main_arg0 : FVec F S4096x14x14x30 .f32) (main_arg1 : FVec F S4096x14x14x30 .f32) : IVec S_ 1 :=
  let main_v0 : FVec F S4096x14x14x30 .f32 := Host.absf main_arg0
  let main_cst : FVec F S_ .f32 := constant S_ .f32 0x7F800000#32
  let main_v1 : FVec F S4096x14x14x30 .f32 := broadcastInDim S4096x14x14x30 ![] bcast_S_S4096x14x14x30 main_cst
  let main_v2 : IVec S4096x14x14x30 1 := cmpf .olt main_v0 main_v1
  let main_c : IVec S_ 1 := constantI S_ 1 1#1
  let main_v3 : IVec S_ 1 := (fun x v => Host.reduce IntOp.andi x v reducesTo_S4096x14x14x30_S_d0_1_2_3 h_S_) main_v2 main_c
  let main_v4 : FVec F S4096x14x14x30 .f32 := Host.absf main_arg1
  let main_cst_0 : FVec F S_ .f32 := constant S_ .f32 0x7F800000#32
  let main_v5 : FVec F S4096x14x14x30 .f32 := broadcastInDim S4096x14x14x30 ![] bcast_S_S4096x14x14x30 main_cst_0
  let main_v6 : IVec S4096x14x14x30 1 := cmpf .olt main_v4 main_v5
  let main_c_1 : IVec S_ 1 := constantI S_ 1 1#1
  let main_v7 : IVec S_ 1 := (fun x v => Host.reduce IntOp.andi x v reducesTo_S4096x14x14x30_S_d0_1_2_3 h_S_) main_v6 main_c_1
  let main_v8 : IVec S_ 1 := andi main_v3 main_v7
  main_v8
-- ==== Kernel.lean ====
abbrev S4096x14x14x30 : Shape := ⟨4, ![4096, 14, 14, 30]⟩
abbrev S1x1 : Shape := ⟨2, ![1, 1]⟩
abbrev S128x14x14x30 : Shape := ⟨4, ![128, 14, 14, 30]⟩
abbrev S128x14x14x1 : Shape := ⟨4, ![128, 14, 14, 1]⟩
abbrev S128x14x14 : Shape := ⟨3, ![128, 14, 14]⟩
abbrev S128x14x14x4 : Shape := ⟨4, ![128, 14, 14, 4]⟩
abbrev S128x14x14x2 : Shape := ⟨4, ![128, 14, 14, 2]⟩
abbrev S128x14x14x20 : Shape := ⟨4, ![128, 14, 14, 20]⟩
abbrev S128x14 : Shape := ⟨2, ![128, 14]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S4096x14x14x30, .f32⟩
  | .hbm, ⟨1, _⟩ => ⟨S4096x14x14x30, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S128x14x14x30, .f32⟩
  | .local _ .vmem, ⟨1, _⟩ => ⟨S128x14x14x30, .f32⟩
  | .local _ .vmem, ⟨2, _⟩ => ⟨S128x14x14x30, .f32⟩
  | .local _ .vmem, ⟨3, _⟩ => ⟨S128x14x14x30, .f32⟩
  | .local _ .vmem, ⟨4, _⟩ => ⟨S1x1, .f32⟩
  | .local _ .vmem, ⟨5, _⟩ => ⟨S1x1, .f32⟩
  | _, _ => ⟨S4096x14x14x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x14x14x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x14x14x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x14x14x30_S128x14x14x30_0_0_0_0 : ∀ a, (![0, 0, 0, 0] : Fin 4 → Nat) a + S128x14x14x30.size a ≤ S128x14x14x30.size a
  h_S128x14x14x30 : 0 < S128x14x14x30.numel
  slices_S128x14x14x30_o0_0_0_0_S128x14x14x1 : S128x14x14x30.Slices ![0, 0, 0, 0] S128x14x14x1
  shapeCasts_S128x14x14x1_S128x14x14 : S128x14x14x1.ShapeCasts S128x14x14
  slices_S128x14x14x30_o0_0_0_1_S128x14x14x1 : S128x14x14x30.Slices ![0, 0, 0, 1] S128x14x14x1
  natLt_1_32 : 1 < 32
  slices_S128x14x14x30_o0_0_0_2_S128x14x14x4 : S128x14x14x30.Slices ![0, 0, 0, 2] S128x14x14x4
  slices_S128x14x14x30_o0_0_0_6_S128x14x14x4 : S128x14x14x30.Slices ![0, 0, 0, 6] S128x14x14x4
  slices_S128x14x14x4_o0_0_0_0_S128x14x14x2 : S128x14x14x4.Slices ![0, 0, 0, 0] S128x14x14x2
  reduces_S128x14x14x2_S128x14x14 : S128x14x14x2.Reduces [3] S128x14x14
  slices_S128x14x14x4_o0_0_0_2_S128x14x14x2 : S128x14x14x4.Slices ![0, 0, 0, 2] S128x14x14x2
  slices_S128x14x14x30_o0_0_0_10_S128x14x14x20 : S128x14x14x30.Slices ![0, 0, 0, 10] S128x14x14x20
  reduces_S128x14x14x20_S128x14x14 : S128x14x14x20.Reduces [3] S128x14x14
  reduces_S128x14x14_S128x14 : S128x14x14.Reduces [2] S128x14
  reduces_S128x14_S128 : S128x14.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x14x14x30.size a ≤ S4096x14x14x30.size a
  hwx0_0 : ∀ i : grid0.Coords, EltTy.bits .f32 = 32 ∨ (Rect.block (s := S4096x14x14x30) S128x14x14x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x14x14x30.size a ≤ S4096x14x14x30.size a
  hwx0_1 : ∀ i : grid0.Coords, EltTy.bits .f32 = 32 ∨ (Rect.block (s := S4096x14x14x30) S128x14x14x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S128x14x14x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x14x14x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x14x14x30 : Shape := ⟨4, ![4096, 14, 14, 30]⟩
abbrev S4096x14x14x2 : Shape := ⟨4, ![4096, 14, 14, 2]⟩
abbrev S4096x14x14x8 : Shape := ⟨4, ![4096, 14, 14, 8]⟩
abbrev S4096x14x14x2x4 : Shape := ⟨5, ![4096, 14, 14, 2, 4]⟩
abbrev S4096x14x14x20 : Shape := ⟨4, ![4096, 14, 14, 20]⟩
abbrev S_ : Shape := ⟨0, ![]⟩
abbrev S4096x14x14 : Shape := ⟨3, ![4096, 14, 14]⟩
abbrev S4096x14x14x2x2 : Shape := ⟨5, ![4096, 14, 14, 2, 2]⟩
abbrev S4096x14x14x1 : Shape := ⟨4, ![4096, 14, 14, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x14x14x30, .f32⟩
  | .hbm, ⟨1, _⟩ => ⟨S4096x14x14x30, .f32⟩
  | .hbm, ⟨2, _⟩ => ⟨S4096x14x14x2, .f32⟩
  | .hbm, ⟨3, _⟩ => ⟨S4096x14x14x2, .f32⟩
  | .hbm, ⟨4, _⟩ => ⟨S4096x14x14x8, .f32⟩
  | .hbm, ⟨5, _⟩ => ⟨S4096x14x14x2x4, .f32⟩
  | .hbm, ⟨6, _⟩ => ⟨S4096x14x14x8, .f32⟩
  | .hbm, ⟨7, _⟩ => ⟨S4096x14x14x2x4, .f32⟩
  | .hbm, ⟨8, _⟩ => ⟨S4096x14x14x20, .f32⟩
  | .hbm, ⟨9, _⟩ => ⟨S4096x14x14x20, .f32⟩
  | .hbm, ⟨10, _⟩ => ⟨S_, .f32⟩
  | .hbm, ⟨11, _⟩ => ⟨S4096x14x14x2, .f32⟩
  | .hbm, ⟨12, _⟩ => ⟨S4096x14x14x2, .i1⟩
  | .hbm, ⟨13, _⟩ => ⟨S_, .i1⟩
  | .hbm, ⟨14, _⟩ => ⟨S4096x14x14, .i1⟩
  | .hbm, ⟨15, _⟩ => ⟨S4096x14x14x2, .i32⟩
  | .hbm, ⟨16, _⟩ => ⟨S_, .i32⟩
  | .hbm, ⟨17, _⟩ => ⟨S_, .i32⟩
  | .hbm, ⟨18, _⟩ => ⟨S4096x14x14x2, .i32⟩
  | .hbm, ⟨19, _⟩ => ⟨S_, .i32⟩
  | .hbm, ⟨20, _⟩ => ⟨S4096x14x14x2, .i32⟩
  | .hbm, ⟨21, _⟩ => ⟨S4096x14x14x2, .i1⟩
  | .hbm, ⟨22, _⟩ => ⟨S4096x14x14x2, .i1⟩
  | .hbm, ⟨23, _⟩ => ⟨S4096x14x14x2, .f32⟩
  | .hbm, ⟨24, _⟩ => ⟨S4096x14x14x2x2, .f32⟩
  | .hbm, ⟨25, _⟩ => ⟨S4096x14x14x2x2, .f32⟩
  | .hbm, ⟨26, _⟩ => ⟨S4096x14x14x2x2, .f32⟩
  | .hbm, ⟨27, _⟩ => ⟨S4096x14x14x2x2, .f32⟩
  | .hbm, ⟨28, _⟩ => ⟨S_, .f32⟩
  | .hbm, ⟨29, _⟩ => ⟨S4096x14x14x2, .f32⟩
  | .hbm, ⟨30, _⟩ => ⟨S4096x14x14x2x2, .f32⟩
  | .hbm, ⟨31, _⟩ => ⟨S4096x14x14x2x2, .f32⟩
  | .hbm, ⟨32, _⟩ => ⟨S4096x14x14x2x2, .f32⟩
  | .hbm, ⟨33, _⟩ => ⟨S4096x14x14x2x2, .f32⟩
  | .hbm, ⟨34, _⟩ => ⟨S4096x14x14x2x2, .f32⟩
  | .hbm, ⟨35, _⟩ => ⟨S4096x14x14x2x2, .f32⟩
  | .hbm, ⟨36, _⟩ => ⟨S_, .f32⟩
  | .hbm, ⟨37, _⟩ => ⟨S4096x14x14x2, .f32⟩
  | .hbm, ⟨38, _⟩ => ⟨S4096x14x14x2, .f32⟩
  | .hbm, ⟨39, _⟩ => ⟨S4096x14x14x2, .f32⟩
  | .hbm, ⟨40, _⟩ => ⟨S4096x14x14x2, .f32⟩
  | .hbm, ⟨41, _⟩ => ⟨S_, .f32⟩
  | .hbm, ⟨42, _⟩ => ⟨S_, .f32⟩
  | .hbm, ⟨43, _⟩ => ⟨S4096x14x14x2, .f32⟩
  | .hbm, ⟨44, _⟩ => ⟨S_, .f32⟩
  | .hbm, ⟨45, _⟩ => ⟨S_, .f32⟩
  | .hbm, ⟨46, _⟩ => ⟨S4096x14x14x2, .f32⟩
  | .hbm, ⟨47, _⟩ => ⟨S_, .f32⟩
  | .hbm, ⟨48, _⟩ => ⟨S_, .f32⟩
  | .hbm, ⟨49, _⟩ => ⟨S4096x14x14, .f32⟩
  | .hbm, ⟨50, _⟩ => ⟨S4096x14x14x20, .f32⟩
  | .hbm, ⟨51, _⟩ => ⟨S4096x14x14x20, .f32⟩
  | .hbm, ⟨52, _⟩ => ⟨S_, .f32⟩
  | .hbm, ⟨53, _⟩ => ⟨S4096x14x14, .f32⟩
  | .hbm, ⟨54, _⟩ => ⟨S4096x14x14, .f32⟩
  | .hbm, ⟨55, _⟩ => ⟨S_, .f32⟩
  | .hbm, ⟨56, _⟩ => ⟨S_, .f32⟩
  | .hbm, ⟨57, _⟩ => ⟨S4096x14x14, .i1⟩
  | .hbm, ⟨58, _⟩ => ⟨S4096x14x14, .f32⟩
  | .hbm, ⟨59, _⟩ => ⟨S4096x14x14x1, .f32⟩
  | .hbm, ⟨60, _⟩ => ⟨S4096x14x14x2, .f32⟩
  | .hbm, ⟨61, _⟩ => ⟨S4096x14x14x2, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S4096x14x14x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_call0_call0_c : Ref sig .tc := ⟨.hbm, 16, rfl⟩
abbrev main_call0_call0_v0 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  slices_S4096x14x14x30_S4096x14x14x2_0_0_0_0 : S4096x14x14x30.Slices ![0, 0, 0, 0] S4096x14x14x2
  slices_S4096x14x14x30_S4096x14x14x8_0_0_0_2 : S4096x14x14x30.Slices ![0, 0, 0, 2] S4096x14x14x8
  shapeCasts_S4096x14x14x8_S4096x14x14x2x4 : S4096x14x14x8.ShapeCasts S4096x14x14x2x4
  slices_S4096x14x14x30_S4096x14x14x20_0_0_0_10 : S4096x14x14x30.Slices ![0, 0, 0, 10] S4096x14x14x20
  bcast_S_S4096x14x14x2 : S_.BroadcastsInDim S4096x14x14x2 (![] : Fin 0 → Fin S4096x14x14x2.rank)
  reducesTo_S4096x14x14x2_S4096x14x14_d3 : S4096x14x14x2.ReducesTo [3] S4096x14x14
  h_S_ : 0 < S_.numel
  natLt_1_32 : 1 < 32
  bcast_S_S_ : S_.BroadcastsInDim S_ (![] : Fin 0 → Fin S_.rank)
  reduceWindows_S4096x14x14x2_S4096x14x14x2_w1s1p0_0_w1s1p0_0_w1s1p0_0_w2s1p1_0 : S4096x14x14x2.ReduceWindows (![1, 1, 1, 2] : Fin 4 → Nat) ![1, 1, 1, 1] ![0, 0, 0, 1] ![0, 0, 0, 0] S4096x14x14x2
  slices_S4096x14x14x2x4_S4096x14x14x2x2_0_0_0_0_0 : S4096x14x14x2x4.Slices ![0, 0, 0, 0, 0] S4096x14x14x2x2
  reducesTo_S4096x14x14x2x2_S4096x14x14x2_d4 : S4096x14x14x2x2.ReducesTo [4] S4096x14x14x2
  slices_S4096x14x14x2x4_S4096x14x14x2x2_0_0_0_0_2 : S4096x14x14x2x4.Slices ![0, 0, 0, 0, 2] S4096x14x14x2x2
  reducesTo_S4096x14x14x2_S_d0_1_2_3 : S4096x14x14x2.ReducesTo [0, 1, 2, 3] S_
  reducesTo_S4096x14x14x20_S4096x14x14_d3 : S4096x14x14x20.ReducesTo [3] S4096x14x14
  reducesTo_S4096x14x14_S_d0_1_2 : S4096x14x14.ReducesTo [0, 1, 2] S_
  bcast_S4096x14x14_S4096x14x14x1_0_1_2 : S4096x14x14.BroadcastsInDim S4096x14x14x1 (![0, 1, 2] : Fin 3 → Fin S4096x14x14x1.rank)
  bcast_S4096x14x14x1_S4096x14x14x2_0_1_2_3 : S4096x14x14x1.BroadcastsInDim S4096x14x14x2 (![0, 1, 2, 3] : Fin 4 → Fin S4096x14x14x2.rank)

variable [Facts₀]

class Facts : Prop extends Facts₀ where

variable [Facts]
-- ==== Proof.KerBlock.lean ====
/-
  The number one grid point contributes: the sum of the cell losses of its block of 128 images, as the body
  computes it from the two input blocks (every intermediate the body names, composed).
-/
import proofs.«149795_j16329465659932_2_alg».proof.Proof.Gen.KernelIdeal.Skeleton

noncomputable section

namespace Cert.KernelIdeal.Val

open Idealize.ShloMosaic Cert.KernelIdeal Cert.KernelIdeal.Gen

variable {F : FTy → Type} [FloatOps F]

/-- The sum of the cell losses of one block of 128 images, as the body computes it from the two input blocks. -/
def blockSum (x0 x1 : Vec F S128x14x14x30 .f32) : FVec F S1x1 .f32 :=
  k0_pay19 x0 x1 (k0_pay3 x0) (k0_pay4 x0) (k0_pay5 x1) (k0_pay6 x1) (k0_pay9 x1) (k0_pay10 x1) (k0_pay11 x1)
    (k0_pay14 x0) (k0_pay15 x1) (k0_pay16 x0 x1) (k0_pay17 x0 x1) (k0_pay18 x0 x1)

end Cert.KernelIdeal.Val

end
-- ==== Proof.KerPieces.lean ====
/-
  What one grid point leaves in the accumulator and in the output block.

  The body computes, from the two input blocks of 128 images, one number: the sum of the cell losses of the block.
  At the first grid point it resets the 1×1 accumulator to zero and then adds that number; at every later point it
  adds it to what the point before left. The output block is a copy of the accumulator after the addition. So both
  hold `previous + block sum`, with `previous = 0` at the first point.
-/
import proofs.«149795_j16329465659932_2_alg».proof.Proof.Gen.KernelIdeal.Frame
import proofs.«149795_j16329465659932_2_alg».proof.Proof.KerBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The zero the accumulator is reset to at the first point. -/
abbrev zero11 : Vec F S1x1 .f32 := broadcast S1x1 (Scalar.ofBits .f32 0x00000000#32)

/-- A later point: the accumulator, holding `xs`, ends at `xs` plus the block's number. -/
theorem sout_B (c : Dev nD) (i : grid0.Coords) (a1 : Memref sig .tc .vmem S128x14x14x30 .f32) (h1 : a1.IsWhole)
    (a2 : Memref sig .tc .vmem S128x14x14x30 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S128x14x14x30 .f32) (xs : Vec F S1x1 .f32) :
    sout0_B_0 c i a1 h1 a2 h2 a3 h3 a4 h4 hc x0 x1 xs = addf xs (blockSum x0 x1) := by
  unfold sout0_B_0
  rw [View.read_writes_eq_canon _ _ _ (scover0_B_0 c i a1 h1 a2 h2 a3 h3 a4 h4 hc x0 x1 xs)]
  unfold kernelRun0_B
  dsimp only
  sl_unfold_words
  rw [View.canon_unit_zero hz2]
  unfold k0_pay1 blockSum
  simp only [View.readAt_eq_ld, h1.read_unread, h2.read_unread, h4.read_unread, View.ld_unit_zero (S := S128x14x14x30) hz4,
    View.ld_unit_zero (S := S1x1) hz2, shapeCast_self]

/-- A later point: the output block ends at the same sum (it is stored from the accumulator after the addition). -/
theorem out_B (c : Dev nD) (i : grid0.Coords) (a1 : Memref sig .tc .vmem S128x14x14x30 .f32) (h1 : a1.IsWhole)
    (a2 : Memref sig .tc .vmem S128x14x14x30 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S128x14x14x30 .f32) (xs : Vec F S1x1 .f32) :
    out0_B_2 c i a1 h1 a2 h2 a3 h3 a4 h4 hc x0 x1 xs = addf xs (blockSum x0 x1) := by
  unfold out0_B_2
  rw [View.read_writes_eq_canon _ _ _ (cover0_B_2 c i a1 h1 a2 h2 a3 h3 a4 h4 hc x0 x1 xs)]
  unfold kernelRun0_B
  dsimp only
  sl_unfold_words
  rw [View.canon_unit_zero hz2, View.readCov_unit_zero (S := S1x1) _ hz2]
  unfold k0_pay1 blockSum
  simp only [View.readAt_eq_ld, h1.read_unread, h2.read_unread, h4.read_unread, View.ld_unit_zero (S := S128x14x14x30) hz4,
    View.ld_unit_zero (S := S1x1) hz2, shapeCast_self]

/-- The first point: the accumulator is reset to zero and ends at zero plus the block's number. -/
theorem sout_A (c : Dev nD) (i : grid0.Coords) (a1 : Memref sig .tc .vmem S128x14x14x30 .f32) (h1 : a1.IsWhole)
    (a2 : Memref sig .tc .vmem S128x14x14x30 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S128x14x14x30 .f32) :
    sout0_A_0 c i a1 h1 a2 h2 a3 h3 a4 h4 hc x0 x1 = addf zero11 (blockSum x0 x1) := by
  unfold sout0_A_0
  rw [View.read_writes_eq_canon _ _ _ (scover0_A_0 c i a1 h1 a2 h2 a3 h3 a4 h4 hc x0 x1)]
  unfold kernelRun0_A
  dsimp only
  sl_unfold_words
  rw [View.canon_cons_unit_zero (S := S1x1) hz2, View.readCov_unit_zero (S := S1x1) _ hz2]
  unfold k0_pay1 k0_pay2 blockSum
  simp only [View.readAt_eq_ld, h1.read_unread, h2.read_unread, h4.read_unread, View.ld_unit_zero (S := S128x14x14x30) hz4,
    View.ld_unit_zero (S := S1x1) hz2, shapeCast_self]

/-- The first point: the output block ends at the same sum. -/
theorem out_A (c : Dev nD) (i : grid0.Coords) (a1 : Memref sig .tc .vmem S128x14x14x30 .f32) (h1 : a1.IsWhole)
    (a2 : Memref sig .tc .vmem S128x14x14x30 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S128x14x14x30 .f32) :
    out0_A_2 c i a1 h1 a2 h2 a3 h3 a4 h4 hc x0 x1 = addf zero11 (blockSum x0 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz2,
    View.readCov_eq_canon_ld _ _ _ (fun y => ⟨_, List.mem_cons_self .., View.mem_set_unit_zero hz2 Facts₀.inb_S1x1_S1x1_0_0 y⟩),
    View.canon_cons_unit_zero (S := S1x1) hz2, View.ld_unit_zero (S := S1x1) hz2, View.readCov_unit_zero (S := S1x1) _ hz2]
  unfold k0_pay1 k0_pay2 blockSum
  simp only [View.readAt_eq_ld, h1.read_unread, h2.read_unread, h4.read_unread, View.ld_unit_zero (S := S128x14x14x30) hz4,
    View.ld_unit_zero (S := S1x1) hz2, shapeCast_self]

end Cert.KernelIdeal.Val

end
-- ==== Proof.KerAcc.lean ====
/-
  The kernel's run, read as a value.

  After grid point `n` the 1×1 accumulator and the output block both hold the running sum
  `((0 + s₀) + s₁) + … + sₙ` of the blocks' numbers (induction on the point: the first point resets to zero and adds,
  every later point adds to what the point before left). The output block is written back once, after the last of the
  32 points, and that one block is the whole 1×1 result array. The two host steps after the region reshape the array
  to a scalar and divide it by 4096.
-/
import proofs.«149795_j16329465659932_2_alg».proof.Proof.KerPieces
import Idealize.ShloMosaic.Lib.StableHlo.Run

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]
variable (m : (ℓ : Loc nD τ sig) → Buf (Elt F) ℓ) (ρ : Dev nD → PrngReg)

/-- The number grid point `t` contributes: the block sum of the two input blocks at `t`. -/
def part (c : Dev nD) (t : Fin cfg0.N) : Vec F S1x1 .f32 := blockSum (iblk m c 0 t) (iblk m c 1 t)

/-- The running sum after point `n`: zero plus the first block's number, then one more block's number per point. -/
def chain (c : Dev nD) : (n : ℕ) → n < cfg0.N → Vec F S1x1 .f32
  | 0, h => addf zero11 (part m c ⟨0, h⟩)
  | n + 1, h => addf (chain c n (Nat.lt_of_succ_lt h)) (part m c ⟨n + 1, h⟩)

/-- After every point the output block and the accumulator both hold the running sum. -/
theorem outsAt_eq (c : Dev nD) : ∀ (n : ℕ) (h : n < cfg0.N), outsAt0 m c n h = (chain m c n h, chain m c n h)
  | 0, h => (outsAt0_A m c ⟨0, h⟩ rfl).trans (congrArg₂ Prod.mk (out_A ..) (sout_A ..))
  | n + 1, h => by
    have hN : cfg0.N = 32 := N_0
    have hB : ¬(⟨n + 1, h⟩ : Fin cfg0.N).val % 32 = 0 := by dsimp only; omega
    rw [outsAt0_B m c ⟨n + 1, h⟩ hB, out_B, sout_B]
    show (addf (outsAt0 m c n _).2 _, addf (outsAt0 m c n _).2 _) = _
    rw [outsAt_eq c n]
    rfl

/-- The last grid point. -/
abbrev tLast : Fin cfg0.N := ⟨31, by rw [show cfg0.N = 32 from N_0]; decide⟩

/-- The result array: the running sum after the last point. -/
abbrev result (c : Dev nD) : Buf (Elt F) ((c : Thread nD τ).loc main_v0) :=
  chain m c 31 (by rw [show cfg0.N = 32 from N_0]; decide)

/-- The one write-back, after the last point, writes the running sum: the 1×1 block at offset zero is the array. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h3 : t.val = 31 := by have := (flush0_2 t).mp hf; have := t.isLt; omega
  obtain rfl : t = tLast := Fin.ext h3
  show (cfg0.win 2).cut (grid0.coords tLast) ((dats m 0 c).after 2 tLast) = _
  rw [after0_2, outsAt_eq]
  have hz' : (fun a => win0_2.index tLast a * main_v0.ty.shape.size a) = fun _ => 0 := funext fun a => by fin_cases a <;> decide
  exact (Memref.read_access_unit_zero (Elt F) main_v0 hz' (fun a => by rw [congrFun hz' a]; simp) (result m c)).symm

/-- So the result array ends holding the running sum after the last point. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The program's result: the result array as a scalar, divided by 4096. -/
def out (c : Dev nD) : Buf (Elt F) ((c : Thread nD τ).loc main_v2) :=
  (Host.divf : (⟨S_, .f32⟩ : BufTy).Contents (Elt F) → (⟨S_, .f32⟩ : BufTy).Contents (Elt F) → (⟨S_, .f32⟩ : BufTy).Contents (Elt F))
    (shapeCast S_ (result m c) shapeCasts_S1x1_S_) (constant S_ .f32 0x45800000#32)

/-- The two host steps after the region, applied to what the region leaves. -/
theorem tail_eq (c : Dev nD) : Pipeline.afterTail₀ cfgs (dats m) 0 (V0 m) [hostOps1] c main_v2 = out m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = result m c := (Pipeline.withArrays_arr spec0 launch0.win.arr_inj c _ _ 2).trans (final_o m c)
  rw [e]
  rfl

/-- The kernel's run, read: the result at the final sum divided by 4096, the argument arrays unchanged. -/
theorem run : θ_run defs (onTc (τ := τ) (main (F := F))) ⟨m, fun _ => 0, ρ⟩ fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.Spec.lean ====
/-
  The YOLO-v1 cell loss as plain mathematics, over the extended reals.

  An array of 4096 × 14 × 14 cells carries 30 channels per cell: two box confidences (channels 0, 1), two boxes of
  four coordinates each (x, y at channels 2 + 4b + {0, 1}; w, h at channels 4 + 4b + {0, 1}), and twenty class scores
  (channels 10 … 29). For a cell with prediction channels `a` and target channels `t`:
    · a box `b` is marked when the target's confidence is exactly one; the FIRST marked box is responsible
      (box 0 when marked, else box 1 when marked);
    · the coordinate term of a box is the squared distance of its (x, y), the size term the squared distance of the
      square roots of its (w, h), the confidence term the squared difference of its confidence;
    · the class term is the squared distance of the twenty class scores, counted when some box is marked.
  The loss of a cell is 5·(coordinate + size terms of the responsible box) + ½·(both confidence terms when no box
  is marked) + (confidence term of the responsible box) + (class term when some box is marked); the result is the
  sum over all cells divided by 4096.

  Two arrangements of that one number are stated: `kerResult` sums the whole cell loss cell by cell, `refResult`
  sums each of the five kinds of term over the whole array first and combines the five totals afterwards.
-/
import Idealize.ShloMosaic.PureOps.Ideal
import Idealize.ShloMosaic.Lib.ValueIdx

noncomputable section

namespace Cert.Yolo

open Idealize.ShloMosaic Idealize.ShloMosaic.ValueIdx

/-- The array shape: 4096 images of 14 × 14 cells with 30 channels. -/
abbrev SA : Shape := ⟨4, ![4096, 14, 14, 30]⟩
/-- One entry per cell and box. -/
abbrev SB : Shape := ⟨4, ![4096, 14, 14, 2]⟩
/-- One entry per cell. -/
abbrev SC : Shape := ⟨3, ![4096, 14, 14]⟩

/-- The constants, each the extended real its single-precision word denotes. -/
def one : EReal := Ideal.ofBits .f32 0x3F800000#32
def five : EReal := Ideal.ofBits .f32 0x40A00000#32
def half : EReal := Ideal.ofBits .f32 0x3F000000#32
def count : EReal := Ideal.ofBits .f32 0x45800000#32

/-- A one-bit word as the number 0 or 1. -/
def bit (p : BitVec 1) : EReal := ((p.toNat : ℝ) : EReal)

/-- The squared difference. -/
def sqd (u v : EReal) : EReal := (u - v) * (u - v)

/-- Channel of box `b`'s centre coordinate `k`. -/
def chanXY (b k : Fin 2) : Fin 30 := ⟨2 + 4 * b.val + k.val, by omega⟩
/-- Channel of box `b`'s size coordinate `k`. -/
def chanWH (b k : Fin 2) : Fin 30 := ⟨4 + 4 * b.val + k.val, by omega⟩
/-- Channel of box `b`'s confidence. -/
def chanC (b : Fin 2) : Fin 30 := ⟨b.val, by omega⟩
/-- Channel of class score `k`. -/
def chanK (k : Fin 20) : Fin 30 := ⟨10 + k.val, by omega⟩

/-- The channels of cell (n, y, x). -/
def cellOf (X : SA.Idx → EReal) (n : Fin 4096) (y x : Fin 14) : Fin 30 → EReal := fun c => X (ix4 n y x c)

section Cell
variable (a t : Fin 30 → EReal)

/-- Box 0 is marked: the target's confidence is exactly one. -/
def mark0 : BitVec 1 := Ideal.cmp .oeq (t (chanC 0)) one
/-- Box 1 is marked. -/
def mark1 : BitVec 1 := Ideal.cmp .oeq (t (chanC 1)) one
/-- Box `b` is the first marked box. -/
def firstBit : Fin 2 → BitVec 1
  | ⟨0, _⟩ => mark0 t
  | ⟨1, _⟩ => mark1 t &&& (mark0 t ^^^ 1#1)
/-- Some box is marked. -/
def hasBit : BitVec 1 := mark0 t ||| mark1 t

/-- Squared distance of box `b`'s centre. -/
def xyTerm (b : Fin 2) : EReal := ∑ k : Fin 2, sqd (a (chanXY b k)) (t (chanXY b k))
/-- Squared distance of the square roots of box `b`'s sizes. -/
def whTerm (b : Fin 2) : EReal := ∑ k : Fin 2, sqd (Ideal.sqrt (a (chanWH b k))) (Ideal.sqrt (t (chanWH b k)))
/-- Squared difference of box `b`'s confidence. -/
def confTerm (b : Fin 2) : EReal := sqd (a (chanC b)) (t (chanC b))
/-- Squared distance of the class scores. -/
def clsTerm : EReal := ∑ k : Fin 20, sqd (a (chanK k)) (t (chanK k))

/-- The loss of one cell. -/
def cellTerm : EReal :=
  (((five * ((bit (firstBit t 0) * xyTerm a t 0 + bit (firstBit t 1) * xyTerm a t 1)
            + (bit (firstBit t 0) * whTerm a t 0 + bit (firstBit t 1) * whTerm a t 1)))
      + half * (bit (hasBit t ^^^ 1#1) * (confTerm a t 0 + confTerm a t 1)))
     + (bit (firstBit t 0) * confTerm a t 0 + bit (firstBit t 1) * confTerm a t 1))
    + bit (hasBit t) * clsTerm a t

end Cell

variable (X T : SA.Idx → EReal)

/-- The sum of the cell losses over all cells. -/
def total : EReal := ∑ n : Fin 4096, ∑ y : Fin 14, ∑ x : Fin 14, cellTerm (cellOf X n y x) (cellOf T n y x)

/-- Cell by cell: the total divided by the number of images. -/
def kerResult : EReal := Ideal.div (total X T) count

/-- The five totals, each over the whole array. -/
def sumXY : EReal := ∑ i : SB.Idx, bit (firstBit (cellOf T (i 0) (i 1) (i 2)) (i 3)) * xyTerm (cellOf X (i 0) (i 1) (i 2)) (cellOf T (i 0) (i 1) (i 2)) (i 3)
def sumWH : EReal := ∑ i : SB.Idx, bit (firstBit (cellOf T (i 0) (i 1) (i 2)) (i 3)) * whTerm (cellOf X (i 0) (i 1) (i 2)) (cellOf T (i 0) (i 1) (i 2)) (i 3)
def sumConf : EReal := ∑ i : SB.Idx, bit (firstBit (cellOf T (i 0) (i 1) (i 2)) (i 3)) * confTerm (cellOf X (i 0) (i 1) (i 2)) (cellOf T (i 0) (i 1) (i 2)) (i 3)
def sumNone : EReal := ∑ i : SB.Idx, bit (hasBit (cellOf T (i 0) (i 1) (i 2)) ^^^ 1#1) * confTerm (cellOf X (i 0) (i 1) (i 2)) (cellOf T (i 0) (i 1) (i 2)) (i 3)
def sumCls : EReal := ∑ i : SC.Idx, bit (hasBit (cellOf T (i 0) (i 1) (i 2))) * clsTerm (cellOf X (i 0) (i 1) (i 2)) (cellOf T (i 0) (i 1) (i 2))

/-- Term by term: the five totals combined, divided by the number of images. -/
def refResult : EReal :=
  Ideal.div ((((five * (sumXY X T + sumWH X T)) + half * sumNone X T) + sumConf X T) + sumCls X T) count

end Cert.Yolo

end
-- ==== Proof.KerCell.lean ====
/-
  The block's number, read: over the extended reals the body's value of two input blocks of 128 images is the
  sum, over the block's 128 × 14 × 14 cells, of the cell loss of the specification.

  Every step of the body is either pointwise (read at a cell it is the same operation on the cell's entries), a
  slice of the channel axis (channel `o + k` of the block), a cast that drops or adds an axis of extent one, or a
  sum over one axis. The three outer sums run over the cell's column, row and image; the inner ones over the two
  coordinates of a box's centre or size and over the twenty class scores. A one-bit mark widened to a word and read
  as a signed integer is the number 0 or 1.
-/
import proofs.«149795_j16329465659932_2_alg».proof.Proof.KerBlock
import proofs.«149795_j16329465659932_2_alg».proof.Proof.Spec
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.Yolo

/-! ## Layout steps at a cell -/

section Layout
variable {α : Type}

/-- A slice of the channel axis starting at `o` reads channel `o + k`. -/
theorem slice_at {C K o : Nat} (v : (⟨4, ![128, 14, 14, C]⟩ : Shape).Idx → α)
    (h : (⟨4, ![128, 14, 14, C]⟩ : Shape).Slices ![0, 0, 0, o] ⟨4, ![128, 14, 14, K]⟩)
    (n : Fin 128) (y x : Fin 14) (k : Fin K) (c : Fin C) (hc : c.val = o + k.val) :
    extractStridedSlice ⟨4, ![128, 14, 14, K]⟩ ![0, 0, 0, o] v h (ix4 n y x k) = v (ix4 n y x c) :=
  extractStridedSlice_apply _ v h _ _ fun a => by
    match a with
    | ⟨0, _⟩ => show n.val = 0 + n.val; omega
    | ⟨1, _⟩ => show y.val = 0 + y.val; omega
    | ⟨2, _⟩ => show x.val = 0 + x.val; omega
    | ⟨3, _⟩ => exact hc

/-- Dropping a trailing axis of extent one. -/
theorem drop_last (v : (⟨4, ![128, 14, 14, 1]⟩ : Shape).Idx → α)
    (h : (⟨4, ![128, 14, 14, 1]⟩ : Shape).ShapeCasts ⟨3, ![128, 14, 14]⟩) (n : Fin 128) (y x : Fin 14) :
    shapeCast ⟨3, ![128, 14, 14]⟩ v h (ix3 n y x) = v (ix4 n y x (0 : Fin 1)) :=
  shapeCast_apply v h _ _ (by
    rw [Shape.rowMajor_val_four, Shape.rowMajor_val_three]
    show ((n.val * 14 + y.val) * 14 + x.val) * 1 + 0 = (n.val * 14 + y.val) * 14 + x.val
    omega)

/-- A vector laid out as a column. -/
theorem col_cast (v : (⟨1, ![128]⟩ : Shape).Idx → α) (h : (⟨1, ![128]⟩ : Shape).ShapeCasts ⟨2, ![128, 1]⟩) (n : Fin 128) :
    shapeCast ⟨2, ![128, 1]⟩ v h (ix2 n (0 : Fin 1)) = v (ix1 n) :=
  shapeCast_apply v h _ _ (by
    rw [Shape.rowMajor_val_one, Shape.rowMajor_val_two]
    show n.val = n.val * 1 + 0
    omega)

/-- A one-element vector laid out as a one-by-one matrix. -/
theorem cast11 (v : (⟨1, ![1]⟩ : Shape).Idx → α) (h : (⟨1, ![1]⟩ : Shape).ShapeCasts ⟨2, ![1, 1]⟩)
    (j : (⟨2, ![1, 1]⟩ : Shape).Idx) : shapeCast ⟨2, ![1, 1]⟩ v h j = v (ix1 (0 : Fin 1)) :=
  shapeCast_apply v h _ _ (by
    rw [Shape.rowMajor_val_one, Shape.rowMajor_val_two]
    have h0 : (j 0).val < 1 := (j 0).isLt
    have h1 : (j 1).val < 1 := (j 1).isLt
    show 0 = (j 0).val * 1 + (j 1).val
    omega)

end Layout

/-! ## Sums over one axis -/

theorem sum_ax3 {K : Nat} (src : FVec Ideal ⟨4, ![128, 14, 14, K]⟩ .f32)
    (h : (⟨4, ![128, 14, 14, K]⟩ : Shape).Reduces [3] ⟨3, ![128, 14, 14]⟩) (hφ : FKind.Formats .f32)
    (hacc : (0x00000000#32 : BitVec 32) = FKind.add.neutral .f32 hφ) (n : Fin 128) (y x : Fin 14) :
    multiReduction .add [3] ⟨3, ![128, 14, 14]⟩ src 0x00000000#32 h hφ hacc (ix3 n y x) = ∑ k : Fin K, src (ix4 n y x k) :=
  (Ideal.multiReduction_add_single src _ h hφ hacc _).trans
    (Finset.sum_congr rfl fun k _ => congrArg src (funext fun a => by
      match a with
      | ⟨0, _⟩ => rfl
      | ⟨1, _⟩ => rfl
      | ⟨2, _⟩ => rfl
      | ⟨3, _⟩ => rfl))

theorem sum_ax2 (src : FVec Ideal ⟨3, ![128, 14, 14]⟩ .f32)
    (h : (⟨3, ![128, 14, 14]⟩ : Shape).Reduces [2] ⟨2, ![128, 14]⟩) (hφ : FKind.Formats .f32)
    (hacc : (0x00000000#32 : BitVec 32) = FKind.add.neutral .f32 hφ) (n : Fin 128) (y : Fin 14) :
    multiReduction .add [2] ⟨2, ![128, 14]⟩ src 0x00000000#32 h hφ hacc (ix2 n y) = ∑ x : Fin 14, src (ix3 n y x) :=
  (Ideal.multiReduction_add_single src _ h hφ hacc _).trans
    (Finset.sum_congr rfl fun k _ => congrArg src (funext fun a => by
      match a with
      | ⟨0, _⟩ => rfl
      | ⟨1, _⟩ => rfl
      | ⟨2, _⟩ => rfl))

theorem sum_ax1 (src : FVec Ideal ⟨2, ![128, 14]⟩ .f32)
    (h : (⟨2, ![128, 14]⟩ : Shape).Reduces [1] ⟨1, ![128]⟩) (hφ : FKind.Formats .f32)
    (hacc : (0x00000000#32 : BitVec 32) = FKind.add.neutral .f32 hφ) (n : Fin 128) :
    multiReduction .add [1] ⟨1, ![128]⟩ src 0x00000000#32 h hφ hacc (ix1 n) = ∑ y : Fin 14, src (ix2 n y) :=
  (Ideal.multiReduction_add_single src _ h hφ hacc _).trans
    (Finset.sum_congr rfl fun k _ => congrArg src (funext fun a => by
      match a with
      | ⟨0, _⟩ => rfl
      | ⟨1, _⟩ => rfl))

theorem sum_ax0 (src : FVec Ideal ⟨2, ![128, 1]⟩ .f32)
    (h : (⟨2, ![128, 1]⟩ : Shape).Reduces [0] ⟨1, ![1]⟩) (hφ : FKind.Formats .f32)
    (hacc : (0x00000000#32 : BitVec 32) = FKind.add.neutral .f32 hφ) :
    multiReduction .add [0] ⟨1, ![1]⟩ src 0x00000000#32 h hφ hacc (ix1 (0 : Fin 1)) = ∑ n : Fin 128, src (ix2 n (0 : Fin 1)) :=
  (Ideal.multiReduction_add_single src _ h hφ hacc _).trans
    (Finset.sum_congr rfl fun k _ => congrArg src (funext fun a => by
      match a with
      | ⟨0, _⟩ => rfl
      | ⟨1, _⟩ => rfl))

/-! ## A mark as a number -/

/-- A one-bit word widened to 32 bits and read as a signed integer is the number 0 or 1. -/
theorem sext_bit (p : BitVec 1) : FloatOps.sitofp (F := Ideal) .f32 (p.setWidth 32) = bit p := by
  show ((((p.setWidth 32).toInt : ℤ) : ℝ) : EReal) = (((p.toNat : ℕ) : ℝ) : EReal)
  have e : (p.setWidth 32).toInt = (p.toNat : ℤ) := by
    rcases BitVec.eq_zero_or_eq_one p with h | h <;> subst h <;> decide
  rw [e]; norm_cast

/-! ## The body's named values at a cell -/

/-- The 30 channels of cell (n, y, x) of a block. -/
def cellB (v : Vec Ideal S128x14x14x30 .f32) (n : Fin 128) (y x : Fin 14) : Fin 30 → EReal := fun c => v (ix4 n y x c)

section Cell
variable (x0 x1 : Vec Ideal S128x14x14x30 .f32) (n : Fin 128) (y x : Fin 14)

theorem pay3_apply : k0_pay3 x0 (ix3 n y x) = cellB x0 n y x (chanC 0) := by
  unfold k0_pay3
  exact (drop_last _ _ n y x).trans (slice_at x0 _ n y x (0 : Fin 1) (chanC 0) rfl)

theorem pay4_apply : k0_pay4 x0 (ix3 n y x) = cellB x0 n y x (chanC 1) := by
  unfold k0_pay4
  exact (drop_last _ _ n y x).trans (slice_at x0 _ n y x (0 : Fin 1) (chanC 1) rfl)

theorem pay5_apply : k0_pay5 x1 (ix3 n y x) = cellB x1 n y x (chanC 0) := by
  unfold k0_pay5
  exact (drop_last _ _ n y x).trans (slice_at x1 _ n y x (0 : Fin 1) (chanC 0) rfl)

theorem pay6_apply : k0_pay6 x1 (ix3 n y x) = cellB x1 n y x (chanC 1) := by
  unfold k0_pay6
  exact (drop_last _ _ n y x).trans (slice_at x1 _ n y x (0 : Fin 1) (chanC 1) rfl)

theorem pay7_apply : k0_pay7 x1 (ix3 n y x) = mark0 (cellB x1 n y x) := by
  unfold k0_pay7
  show FloatOps.cmpf .oeq (k0_pay5 x1 (ix3 n y x)) _ = _
  rw [pay5_apply]; rfl

theorem pay8_apply : k0_pay8 x1 (ix3 n y x) = mark1 (cellB x1 n y x) := by
  unfold k0_pay8
  show FloatOps.cmpf .oeq (k0_pay6 x1 (ix3 n y x)) _ = _
  rw [pay6_apply]; rfl

theorem pay9_apply : k0_pay9 x1 (ix3 n y x) = hasBit (cellB x1 n y x) := by
  unfold k0_pay9
  show k0_pay7 x1 (ix3 n y x) ||| k0_pay8 x1 (ix3 n y x) = _
  rw [pay7_apply, pay8_apply]; rfl

theorem pay10_apply : k0_pay10 x1 (ix3 n y x) = bit (firstBit (cellB x1 n y x) 0) := by
  unfold k0_pay10
  show FloatOps.sitofp (F := Ideal) .f32 ((k0_pay7 x1 (ix3 n y x)).setWidth 32) = _
  rw [pay7_apply, sext_bit]; rfl

theorem pay11_apply : k0_pay11 x1 (ix3 n y x) = bit (firstBit (cellB x1 n y x) 1) := by
  unfold k0_pay11
  show FloatOps.sitofp (F := Ideal) .f32 ((k0_pay8 x1 (ix3 n y x) &&& (k0_pay7 x1 (ix3 n y x) ^^^ 1#1)).setWidth 32) = _
  rw [pay7_apply, pay8_apply, sext_bit]; rfl

theorem pay14_apply (k : Fin 4) (c : Fin 30) (hc : c.val = 6 + k.val) : k0_pay14 x0 (ix4 n y x k) = cellB x0 n y x c := by
  unfold k0_pay14
  exact slice_at x0 _ n y x k c hc

theorem pay15_apply (k : Fin 4) (c : Fin 30) (hc : c.val = 6 + k.val) : k0_pay15 x1 (ix4 n y x k) = cellB x1 n y x c := by
  unfold k0_pay15
  exact slice_at x1 _ n y x k c hc

theorem pay12_apply (k : Fin 4) (c : Fin 30) (hc : c.val = 2 + k.val) : k0_pay12 x0 (ix4 n y x k) = cellB x0 n y x c := by
  unfold k0_pay12
  exact slice_at x0 _ n y x k c hc

theorem pay13_apply (k : Fin 4) (c : Fin 30) (hc : c.val = 2 + k.val) : k0_pay13 x1 (ix4 n y x k) = cellB x1 n y x c := by
  unfold k0_pay13
  exact slice_at x1 _ n y x k c hc

theorem pay16_apply : k0_pay16 x0 x1 (ix3 n y x) = xyTerm (cellB x0 n y x) (cellB x1 n y x) 0 := by
  unfold k0_pay16
  refine (sum_ax3 _ _ _ _ n y x).trans (Finset.sum_congr rfl fun k _ => ?_)
  have e0 := (slice_at (k0_pay12 x0) (by decide) n y x k (⟨0 + k.val, by omega⟩ : Fin 4) rfl).trans
    (pay12_apply x0 n y x ⟨0 + k.val, by omega⟩ (chanXY 0 k) (by show 2 + 4 * 0 + k.val = 2 + (0 + k.val); omega))
  have e1 := (slice_at (k0_pay13 x1) (by decide) n y x k (⟨0 + k.val, by omega⟩ : Fin 4) rfl).trans
    (pay13_apply x1 n y x ⟨0 + k.val, by omega⟩ (chanXY 0 k) (by show 2 + 4 * 0 + k.val = 2 + (0 + k.val); omega))
  show (_ - _) * (_ - _) = sqd _ _
  rw [e0, e1]; rfl

theorem pay17_apply : k0_pay17 x0 x1 (ix3 n y x) = xyTerm (cellB x0 n y x) (cellB x1 n y x) 1 := by
  unfold k0_pay17
  refine (sum_ax3 _ _ _ _ n y x).trans (Finset.sum_congr rfl fun k _ => ?_)
  have e0 := (slice_at (k0_pay14 x0) (by decide) n y x k (⟨0 + k.val, by omega⟩ : Fin 4) rfl).trans
    (pay14_apply x0 n y x ⟨0 + k.val, by omega⟩ (chanXY 1 k) (by show 2 + 4 * 1 + k.val = 6 + (0 + k.val); omega))
  have e1 := (slice_at (k0_pay15 x1) (by decide) n y x k (⟨0 + k.val, by omega⟩ : Fin 4) rfl).trans
    (pay15_apply x1 n y x ⟨0 + k.val, by omega⟩ (chanXY 1 k) (by show 2 + 4 * 1 + k.val = 6 + (0 + k.val); omega))
  show (_ - _) * (_ - _) = sqd _ _
  rw [e0, e1]; rfl

/-- The difference of the square roots of box 0's sizes. -/
theorem pay18_apply (k : Fin 2) : k0_pay18 x0 x1 (ix4 n y x k)
    = Ideal.sqrt (cellB x0 n y x (chanWH 0 k)) - Ideal.sqrt (cellB x1 n y x (chanWH 0 k)) := by
  unfold k0_pay18
  have e0 := (slice_at (k0_pay12 x0) (by decide) n y x k (⟨2 + k.val, by omega⟩ : Fin 4) rfl).trans
    (pay12_apply x0 n y x ⟨2 + k.val, by omega⟩ (chanWH 0 k) (by show 4 + 4 * 0 + k.val = 2 + (2 + k.val); omega))
  have e1 := (slice_at (k0_pay13 x1) (by decide) n y x k (⟨2 + k.val, by omega⟩ : Fin 4) rfl).trans
    (pay13_apply x1 n y x ⟨2 + k.val, by omega⟩ (chanWH 0 k) (by show 4 + 4 * 0 + k.val = 2 + (2 + k.val); omega))
  show Ideal.sqrt _ - Ideal.sqrt _ = _
  rw [e0, e1]

end Cell

end Cert.KernelIdeal.Val

end
-- ==== Proof.KerSum.lean ====
/-
  The block's number is the sum of the specification's cell losses over the block's cells.

  Read at a cell, the body's last pointwise value is the cell loss: five times the coordinate and size terms of the
  responsible box, half the confidence terms when no box is marked, the responsible box's confidence term, and the
  class term when some box is marked. The three sums over a cell's column, row and image, and the casts between
  them, then give the triple sum over the block.
-/
import proofs.«149795_j16329465659932_2_alg».proof.Proof.KerCell

noncomputable section

namespace Cert.KernelIdeal.Val

open Idealize.ShloMosaic Idealize.ShloMosaic.ValueIdx Cert.KernelIdeal Cert.KernelIdeal.Gen Cert.Yolo

section Cell
variable (x0 x1 : Vec Ideal S128x14x14x30 .f32) (n : Fin 128) (y x : Fin 14)

/-- The confidence term of box 0. -/
theorem conf0_apply : mulf (subf (k0_pay3 x0) (k0_pay5 x1)) (subf (k0_pay3 x0) (k0_pay5 x1)) (ix3 n y x)
    = confTerm (cellB x0 n y x) (cellB x1 n y x) 0 := by
  show (k0_pay3 x0 (ix3 n y x) - k0_pay5 x1 (ix3 n y x)) * (k0_pay3 x0 (ix3 n y x) - k0_pay5 x1 (ix3 n y x)) = _
  rw [pay3_apply, pay5_apply]; rfl

/-- The confidence term of box 1. -/
theorem conf1_apply : mulf (subf (k0_pay4 x0) (k0_pay6 x1)) (subf (k0_pay4 x0) (k0_pay6 x1)) (ix3 n y x)
    = confTerm (cellB x0 n y x) (cellB x1 n y x) 1 := by
  show (k0_pay4 x0 (ix3 n y x) - k0_pay6 x1 (ix3 n y x)) * (k0_pay4 x0 (ix3 n y x) - k0_pay6 x1 (ix3 n y x)) = _
  rw [pay4_apply, pay6_apply]; rfl

/-- The size term of box 0. -/
theorem wh0_apply (h : S128x14x14x2.Reduces [3] S128x14x14) (hφ : FKind.Formats .f32)
    (hacc : (0x00000000#32 : BitVec 32) = FKind.add.neutral .f32 hφ) :
    multiReduction .add [3] S128x14x14 (mulf (k0_pay18 x0 x1) (k0_pay18 x0 x1)) 0x00000000#32 h hφ hacc (ix3 n y x)
      = whTerm (cellB x0 n y x) (cellB x1 n y x) 0 := by
  refine (sum_ax3 _ h hφ hacc n y x).trans (Finset.sum_congr rfl fun k _ => ?_)
  show k0_pay18 x0 x1 (ix4 n y x k) * k0_pay18 x0 x1 (ix4 n y x k) = _
  rw [pay18_apply]; rfl

/-- The size term of box 1. -/
theorem wh1_apply (hs : S128x14x14x4.Slices ![0, 0, 0, 2] S128x14x14x2) (h : S128x14x14x2.Reduces [3] S128x14x14)
    (hφ : FKind.Formats .f32) (hacc : (0x00000000#32 : BitVec 32) = FKind.add.neutral .f32 hφ) :
    multiReduction .add [3] S128x14x14
        (mulf (subf (sqrt (extractStridedSlice S128x14x14x2 ![0, 0, 0, 2] (k0_pay14 x0) hs))
                (sqrt (extractStridedSlice S128x14x14x2 ![0, 0, 0, 2] (k0_pay15 x1) hs)))
          (subf (sqrt (extractStridedSlice S128x14x14x2 ![0, 0, 0, 2] (k0_pay14 x0) hs))
                (sqrt (extractStridedSlice S128x14x14x2 ![0, 0, 0, 2] (k0_pay15 x1) hs))))
        0x00000000#32 h hφ hacc (ix3 n y x)
      = whTerm (cellB x0 n y x) (cellB x1 n y x) 1 := by
  refine (sum_ax3 _ h hφ hacc n y x).trans (Finset.sum_congr rfl fun k _ => ?_)
  have e0 := (slice_at (k0_pay14 x0) hs n y x k (⟨2 + k.val, by omega⟩ : Fin 4) rfl).trans
    (pay14_apply x0 n y x ⟨2 + k.val, by omega⟩ (chanWH 1 k) (by show 4 + 4 * 1 + k.val = 6 + (2 + k.val); omega))
  have e1 := (slice_at (k0_pay15 x1) hs n y x k (⟨2 + k.val, by omega⟩ : Fin 4) rfl).trans
    (pay15_apply x1 n y x ⟨2 + k.val, by omega⟩ (chanWH 1 k) (by show 4 + 4 * 1 + k.val = 6 + (2 + k.val); omega))
  show (Ideal.sqrt _ - Ideal.sqrt _) * (Ideal.sqrt _ - Ideal.sqrt _) = sqd _ _
  rw [e0, e1]; rfl

/-- The class term. -/
theorem cls_apply (hs : S128x14x14x30.Slices ![0, 0, 0, 10] S128x14x14x20) (h : S128x14x14x20.Reduces [3] S128x14x14)
    (hφ : FKind.Formats .f32) (hacc : (0x00000000#32 : BitVec 32) = FKind.add.neutral .f32 hφ) :
    multiReduction .add [3] S128x14x14
        (mulf (subf (extractStridedSlice S128x14x14x20 ![0, 0, 0, 10] x0 hs : FVec Ideal S128x14x14x20 .f32) (extractStridedSlice S128x14x14x20 ![0, 0, 0, 10] x1 hs))
          (subf (extractStridedSlice S128x14x14x20 ![0, 0, 0, 10] x0 hs : FVec Ideal S128x14x14x20 .f32) (extractStridedSlice S128x14x14x20 ![0, 0, 0, 10] x1 hs)))
        0x00000000#32 h hφ hacc (ix3 n y x)
      = clsTerm (cellB x0 n y x) (cellB x1 n y x) := by
  refine (sum_ax3 _ h hφ hacc n y x).trans (Finset.sum_congr rfl fun k _ => ?_)
  have e0 := slice_at x0 hs n y x k (chanK k) rfl
  have e1 := slice_at x1 hs n y x k (chanK k) rfl
  show (_ - _) * (_ - _) = sqd _ _
  rw [e0, e1]; rfl

/-- Some box is marked, as a number. -/
theorem has_apply (hw : 1 < 32) : (sitofp .f32 (extui 32 (k0_pay9 x1) hw) : FVec Ideal S128x14x14 .f32) (ix3 n y x)
    = bit (hasBit (cellB x1 n y x)) := by
  show FloatOps.sitofp (F := Ideal) .f32 ((k0_pay9 x1 (ix3 n y x)).setWidth 32) = _
  rw [pay9_apply, sext_bit]

/-- No box is marked, as a number. -/
theorem none_apply (hw : 1 < 32) :
    (sitofp .f32 (extui 32 (xori (k0_pay9 x1) (constantI S128x14x14 1 1#1)) hw) : FVec Ideal S128x14x14 .f32) (ix3 n y x)
    = bit (hasBit (cellB x1 n y x) ^^^ 1#1) := by
  show FloatOps.sitofp (F := Ideal) .f32 ((k0_pay9 x1 (ix3 n y x) ^^^ 1#1).setWidth 32) = _
  rw [pay9_apply, sext_bit]

end Cell

/-- The block's number is the sum of the cell losses over the block's 128 × 14 × 14 cells. -/
theorem blockSum_apply (x0 x1 : Vec Ideal S128x14x14x30 .f32) (j : S1x1.Idx) :
    blockSum x0 x1 j = ∑ n : Fin 128, ∑ y : Fin 14, ∑ x : Fin 14, cellTerm (cellB x0 n y x) (cellB x1 n y x) := by
  unfold blockSum k0_pay19
  refine (cast11 _ _ j).trans ?_
  refine (sum_ax0 _ _ _ _).trans (Finset.sum_congr rfl fun n _ => ?_)
  refine (col_cast _ _ n).trans ?_
  refine (sum_ax1 _ _ _ _ n).trans (Finset.sum_congr rfl fun y _ => ?_)
  refine (sum_ax2 _ _ _ _ n y).trans (Finset.sum_congr rfl fun x _ => ?_)
  show (((Ideal.ofBits .f32 0x40A00000#32 * ((k0_pay10 x1 (ix3 n y x) * k0_pay16 x0 x1 (ix3 n y x) + k0_pay11 x1 (ix3 n y x) * k0_pay17 x0 x1 (ix3 n y x))
            + (k0_pay10 x1 (ix3 n y x) * _ + k0_pay11 x1 (ix3 n y x) * _)))
        + Ideal.ofBits .f32 0x3F000000#32 * (_ * (_ + _)))
      + (k0_pay10 x1 (ix3 n y x) * _ + k0_pay11 x1 (ix3 n y x) * _)) + _ * _ = _
  have e10 := pay10_apply x1 n y x
  have e11 := pay11_apply x1 n y x
  have e16 := pay16_apply x0 x1 n y x
  have e17 := pay17_apply x0 x1 n y x
  have ec0 := conf0_apply x0 x1 n y x
  have ec1 := conf1_apply x0 x1 n y x
  exact congrArg₂ (· + ·)
    (congrArg₂ (· + ·)
      (congrArg₂ (· + ·)
        (congrArg (five * ·)
          (congrArg₂ (· + ·)
            (congrArg₂ (· + ·) (congrArg₂ (· * ·) e10 e16) (congrArg₂ (· * ·) e11 e17))
            (congrArg₂ (· + ·) (congrArg₂ (· * ·) e10 (wh0_apply x0 x1 n y x _ _ _))
              (congrArg₂ (· * ·) e11 (wh1_apply x0 x1 n y x _ _ _ _)))))
        (congrArg (half * ·) (congrArg₂ (· * ·) (none_apply x1 n y x _) (congrArg₂ (· + ·) ec0 ec1))))
      (congrArg₂ (· + ·) (congrArg₂ (· * ·) e10 ec0) (congrArg₂ (· * ·) e11 ec1)))
    (congrArg₂ (· * ·) (has_apply x1 n y x _) (cls_apply x0 x1 n y x _ _ _ _))

end Cert.KernelIdeal.Val

end
-- ==== Proof.KerBlockRead.lean ====
/-
  The kernel's input blocks, read cell by cell.

  Each of the two input windows cuts its argument array of 4096 images into 32 blocks of 128 images; at grid point `t`
  the block is the unit-stride rectangle of the array at block index (t, 0, 0, 0) times the block size
  (128, 14, 14, 30). So entry (n, y, x, ch) of the block is entry (128 t + n, y, x, ch) of the array as the region finds
  it, and the region finds the argument arrays as the launch memory has them: no host operation runs before it. Read
  at a cell, the block's thirty channels are the thirty channels of the array's cell (128 t + n, y, x).
-/
import proofs.«149795_j16329465659932_2_alg».proof.Proof.Gen.KernelIdeal.Frame
import proofs.«149795_j16329465659932_2_alg».proof.Proof.KerCell
import proofs.«149795_j16329465659932_2_alg».proof.Proof.Spec
import Idealize.ShloMosaic.Lib.Pipeline.Value

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- Input window 0's block index at grid point t is (t, 0, 0, 0): decided once over the grid's 32 points. -/
theorem index0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)

/-- Input window 1's block index at grid point t is (t, 0, 0, 0). -/
theorem index1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)

/-- Cell (n, y, x) of the first input's block at grid point t is cell (128 t + n, y, x) of the first argument array as the
    launch memory has it: the block is the unit-stride rectangle of the array at block index (t, 0, 0, 0) times the block
    size (128, 14, 14, 30), and the region finds the argument arrays as the launch memory has them. -/
theorem iblk0_cell (c : Dev nD) (t : Fin cfg0.N) (n : Fin 128) (y x : Fin 14) (h : 128 * t.val + n.val < 4096) :
    cellB (iblk m c 0 t) n y x
      = Cert.Yolo.cellOf (m ((c : Thread nD τ).loc main_arg0)) ⟨128 * t.val + n.val, h⟩ y x := by
  have hi := index0 t
  funext ch
  unfold cellB iblk Cert.Yolo.cellOf
  rw [View.read_apply]
  show V m c main_arg0 _ = m (c.tc.loc main_arg0) _
  unfold V
  congr 1
  funext a
  apply Fin.ext
  match a with
  | ⟨0, _⟩ => show win0_0.index t 0 * 128 + 1 * n.val = 128 * t.val + n.val; rw [hi.1]; omega
  | ⟨1, _⟩ => show win0_0.index t 1 * 14 + 1 * y.val = y.val; rw [hi.2.1]; omega
  | ⟨2, _⟩ => show win0_0.index t 2 * 14 + 1 * x.val = x.val; rw [hi.2.2.1]; omega
  | ⟨3, _⟩ => show win0_0.index t 3 * 30 + 1 * ch.val = ch.val; rw [hi.2.2.2]; omega

/-- The same for the second input's block and the second argument array. -/
theorem iblk1_cell (c : Dev nD) (t : Fin cfg0.N) (n : Fin 128) (y x : Fin 14) (h : 128 * t.val + n.val < 4096) :
    cellB (iblk m c 1 t) n y x
      = Cert.Yolo.cellOf (m ((c : Thread nD τ).loc main_arg1)) ⟨128 * t.val + n.val, h⟩ y x := by
  have hi := index1 t
  funext ch
  unfold cellB iblk Cert.Yolo.cellOf
  rw [View.read_apply]
  show V m c main_arg1 _ = m (c.tc.loc main_arg1) _
  unfold V
  congr 1
  funext a
  apply Fin.ext
  match a with
  | ⟨0, _⟩ => show win0_1.index t 0 * 128 + 1 * n.val = 128 * t.val + n.val; rw [hi.1]; omega
  | ⟨1, _⟩ => show win0_1.index t 1 * 14 + 1 * y.val = y.val; rw [hi.2.1]; omega
  | ⟨2, _⟩ => show win0_1.index t 2 * 14 + 1 * x.val = x.val; rw [hi.2.2.1]; omega
  | ⟨3, _⟩ => show win0_1.index t 3 * 30 + 1 * ch.val = ch.val; rw [hi.2.2.2]; omega

end Cert.KernelIdeal.Val

end
-- ==== Proof.LibBlocks.lean ====
/-
  A sum over `a · b` consecutive indices, block by block.
-/
import Mathlib.Algebra.BigOperators.Fin
import Mathlib.Logic.Equiv.Fin.Basic

namespace Cert.LibBlocks

open Finset

/-- A sum over `Fin (a * b)` is the sum, over the `a` blocks of `b` consecutive indices, of the sums over each
    block: index `n + b * s` is element `n` of block `s`. -/
theorem sum_fin_mul {M : Type*} [AddCommMonoid M] (a b : ℕ) (g : Fin (a * b) → M) :
    ∑ N, g N = ∑ s : Fin a, ∑ n : Fin b, g (finProdFinEquiv (s, n)) := by
  rw [← Equiv.sum_comp (finProdFinEquiv (m := a) (n := b)) g, Fintype.sum_prod_type]

/-- The index `finProdFinEquiv` names. -/
theorem finProdFinEquiv_val {a b : ℕ} (s : Fin a) (n : Fin b) : (finProdFinEquiv (s, n)).val = n.val + b * s.val := rfl

end Cert.LibBlocks
-- ==== Proof.BlockTotal.lean ====
/-
  The total of the cell losses, visited in 32 blocks of 128 images.

  The 4096 images split into 32 consecutive blocks of 128: image 128·s + n is image n of block s. If `P s` is the
  sum of the cell losses over the cells of block s, the sum of the 32 block sums is the total over all cells: a sum
  over 32 · 128 consecutive indices is the sum over the blocks of the sums within each block, and the index that
  names element n of block s is 128·s + n. The extended reals are only used as an additive commutative monoid here.
-/
import proofs.«149795_j16329465659932_2_alg».proof.Proof.Spec
import proofs.«149795_j16329465659932_2_alg».proof.Proof.LibBlocks

noncomputable section

open scoped BigOperators

namespace Cert.Yolo

open Idealize.ShloMosaic Idealize.ShloMosaic.ValueIdx

/-- The total of the cell losses as the sum over the 32 blocks and the 128 images of each block, the image named
    by its block and its place in the block. -/
theorem total_eq_blocks (X T : SA.Idx → EReal) :
    total X T = ∑ s : Fin 32, ∑ n : Fin 128, ∑ y : Fin 14, ∑ x : Fin 14,
      cellTerm (cellOf X (finProdFinEquiv (m := 32) (n := 128) (s, n)) y x)
        (cellOf T (finProdFinEquiv (m := 32) (n := 128) (s, n)) y x) :=
  Cert.LibBlocks.sum_fin_mul 32 128
    (fun N : Fin (32 * 128) => ∑ y : Fin 14, ∑ x : Fin 14, cellTerm (cellOf X N y x) (cellOf T N y x))

/-- Element n of block s is image 128·s + n. -/
theorem block_index (s : Fin 32) (n : Fin 128) (h : 128 * s.val + n.val < 4096) :
    (⟨128 * s.val + n.val, h⟩ : Fin 4096) = finProdFinEquiv (m := 32) (n := 128) (s, n) := by
  apply Fin.ext
  show 128 * s.val + n.val = n.val + 128 * s.val
  omega

/-- If `P s` is the sum of the cell losses over block s (images 128·s … 128·s + 127), for each of the 32 blocks, then
    the sum of the `P s` is the total of the cell losses. -/
theorem total_by_blocks (X T : SA.Idx → EReal) (P : ℕ → EReal)
    (hP : ∀ (s : ℕ) (hs : s < 32), P s = ∑ n : Fin 128, ∑ y : Fin 14, ∑ x : Fin 14,
        cellTerm (cellOf X ⟨128 * s + n.val, by omega⟩ y x) (cellOf T ⟨128 * s + n.val, by omega⟩ y x)) :
    ∑ s ∈ Finset.range 32, P s = total X T := by
  rw [Finset.sum_range, total_eq_blocks]
  refine Finset.sum_congr rfl fun s _ => (hP s.val s.isLt).trans ?_
  refine Finset.sum_congr rfl fun n _ => ?_
  exact congrArg
    (fun N : Fin 4096 => ∑ y : Fin 14, ∑ x : Fin 14, cellTerm (cellOf X N y x) (cellOf T N y x))
    (block_index s n _)

end Cert.Yolo

end
-- ==== Proof.KerTotal.lean ====
/-
  The kernel's result is the specification's loss, cell by cell.

  The running sum after the last grid point is the sum over the 32 grid points of the blocks' numbers; a block's
  number is the sum of the cell losses over its 128 × 14 × 14 cells; the cells of block `t` are the cells of images
  128·t … 128·t + 127 of the arrays. So the result array holds the sum of the cell losses over all 4096 × 14 × 14
  cells, and the program's result is that sum divided by 4096.
-/
import proofs.«149795_j16329465659932_2_alg».proof.Proof.KerAcc
import proofs.«149795_j16329465659932_2_alg».proof.Proof.KerSum
import proofs.«149795_j16329465659932_2_alg».proof.Proof.KerBlockRead
import proofs.«149795_j16329465659932_2_alg».proof.Proof.BlockTotal

noncomputable section

open Idealize.ShloMosaic Idealize.ShloMosaic.TcCoe Idealize.ShloMosaic.ValueIdx Idealize.SL.Sem

namespace Cert.KernelIdeal.Val

open Cert.KernelIdeal Cert.KernelIdeal.Gen Cert.Yolo

variable (m : (ℓ : Loc nD τ sig) → Buf (Elt Ideal) ℓ)

/-- The number grid point `s` contributes (zero past the grid). -/
def partAt (c : Dev nD) (s : ℕ) : EReal :=
  if hs : s < cfg0.N then part m c ⟨s, hs⟩ (ix2 (0 : Fin 1) (0 : Fin 1)) else 0

/-- The running sum after point `n` is the sum of the first `n + 1` blocks' numbers. -/
theorem chain_apply (c : Dev nD) : ∀ (n : ℕ) (h : n < cfg0.N),
    chain m c n h (ix2 (0 : Fin 1) (0 : Fin 1)) = ∑ s ∈ Finset.range (n + 1), partAt m c s
  | 0, h => by
    rw [Finset.sum_range_one]
    unfold partAt
    rw [dif_pos h]
    show Ideal.ofBits .f32 0x00000000#32 + part m c ⟨0, h⟩ _ = _
    rw [Ideal.ofBits_zero_f32, zero_add]
  | n + 1, h => by
    rw [Finset.sum_range_succ, ← chain_apply c n (Nat.lt_of_succ_lt h)]
    unfold partAt
    rw [dif_pos h]
    rfl

/-- A block's number is the sum of the cell losses over the block's images of the two arrays. -/
theorem partAt_eq (c : Dev nD) (s : ℕ) (hs : s < 32) :
    partAt m c s = ∑ n : Fin 128, ∑ y : Fin 14, ∑ x : Fin 14,
      cellTerm (cellOf (m ((c : Thread nD τ).loc main_arg0)) ⟨128 * s + n.val, by omega⟩ y x)
        (cellOf (m ((c : Thread nD τ).loc main_arg1)) ⟨128 * s + n.val, by omega⟩ y x) := by
  have hN : cfg0.N = 32 := N_0
  have hs' : s < cfg0.N := by omega
  unfold partAt
  rw [dif_pos hs']
  unfold part
  rw [blockSum_apply]
  refine Finset.sum_congr rfl fun n _ => Finset.sum_congr rfl fun y _ => Finset.sum_congr rfl fun x _ => ?_
  rw [iblk0_cell m c ⟨s, hs'⟩ n y x (by show 128 * s + n.val < 4096; omega),
    iblk1_cell m c ⟨s, hs'⟩ n y x (by show 128 * s + n.val < 4096; omega)]

/-- The program's result is the loss of the specification, summed cell by cell. -/
theorem out_eq (c : Dev nD) :
    out m c = fun _ => kerResult (m ((c : Thread nD τ).loc main_arg0)) (m ((c : Thread nD τ).loc main_arg1)) := by
  funext j
  unfold out kerResult
  show Ideal.div (shapeCast S_ (result m c) shapeCasts_S1x1_S_ j) (Ideal.ofBits .f32 0x45800000#32) = Ideal.div _ count
  refine congrArg (fun z => Ideal.div z count) ?_
  refine (shapeCast_apply _ _ j (ix2 (0 : Fin 1) (0 : Fin 1)) ?_).trans ?_
  · rw [Shape.rowMajor_val_two]
    have h1 : ((S_ : Shape).rowMajor j).val < 1 := (S_.rowMajor j).isLt
    exact (Nat.lt_one_iff.mp h1).symm
  · exact (chain_apply m c 31 _).trans (total_by_blocks _ _ (partAt m c) (partAt_eq m c))

end Cert.KernelIdeal.Val

end
-- ==== Proof.RefRun.lean ====
/-
  The reference's run, read back.

  The reference program is a straight line of seventy-two tensor operations (its one call to the running-sum helper
  unfolded at the call site: a zero, its rank-zero broadcast, and the windowed integer sum over the last axis). Every
  weakly fair execution of it terminates, and the result buffer then holds ONE pure term of the two argument arrays,
  `refOut X T`, while the arguments are unchanged.

  `refOut` is stated in stages that follow the program's data flow. From an array of 4096 × 14 × 14 cells of 30
  channels: the two confidence channels (`conf`), the two boxes of four coordinates (`box`, the eight channels after
  them regrouped 2 × 4), the twenty class channels (`cls`). From the target's confidences: which boxes are marked
  (`obj`: the confidence compares equal to one), whether a cell has a marked box (`hasObj`: the disjunction over the
  two boxes), and the first marked box as a 0/1 number (`first`: marked, and the running count of marks up to and
  including this box equals one). The squared distances (`sqXY` over a box's first two coordinates, `sqWH` over the square
  roots of its last two, `sqd` of the confidences, `clsSq` over the class channels), the masked totals over all cells
  (`total4`, `total3`), and the weighted combination divided by the batch size.
-/
import proofs.«149795_j16329465659932_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's 72 operations, in order, the call's three in its place over the call's buffers. -/
abbrev ops : List (HloOp τ sig (Elt F)) :=
  [ unary main_arg0 main_v0 ((extractStridedSlice S4096x14x14x2 ![0, 0, 0, 0] · slices_S4096x14x14x30_S4096x14x14x2_0_0_0_0) : (⟨S4096x14x14x30, .f32⟩ : BufTy).Contents (Elt F) → (⟨S4096x14x14x2, .f32⟩ : BufTy).Contents (Elt F)),
    unary main_arg1 main_v1 ((extractStridedSlice S4096x14x14x2 ![0, 0, 0, 0] · slices_S4096x14x14x30_S4096x14x14x2_0_0_0_0) : (⟨S4096x14x14x30, .f32⟩ : BufTy).Contents (Elt F) → (⟨S4096x14x14x2, .f32⟩ : BufTy).Contents (Elt F)),
    unary main_arg0 main_v2 ((extractStridedSlice S4096x14x14x8 ![0, 0, 0, 2] · slices_S4096x14x14x30_S4096x14x14x8_0_0_0_2) : (⟨S4096x14x14x30, .f32⟩ : BufTy).Contents (Elt F) → (⟨S4096x14x14x8, .f32⟩ : BufTy).Contents (Elt F)),
    reshape main_v2 main_v3 rfl shapeCasts_S4096x14x14x8_S4096x14x14x2x4,
    unary main_arg1 main_v4 ((extractStridedSlice S4096x14x14x8 ![0, 0, 0, 2] · slices_S4096x14x14x30_S4096x14x14x8_0_0_0_2) : (⟨S4096x14x14x30, .f32⟩ : BufTy).Contents (Elt F) → (⟨S4096x14x14x8, .f32⟩ : BufTy).Contents (Elt F)),
    reshape main_v4 main_v5 rfl shapeCasts_S4096x14x14x8_S4096x14x14x2x4,
    unary main_arg0 main_v6 ((extractStridedSlice S4096x14x14x20 ![0, 0, 0, 10] · slices_S4096x14x14x30_S4096x14x14x20_0_0_0_10) : (⟨S4096x14x14x30, .f32⟩ : BufTy).Contents (Elt F) → (⟨S4096x14x14x20, .f32⟩ : BufTy).Contents (Elt F)),
    unary main_arg1 main_v7 ((extractStridedSlice S4096x14x14x20 ![0, 0, 0, 10] · slices_S4096x14x14x30_S4096x14x14x20_0_0_0_10) : (⟨S4096x14x14x30, .f32⟩ : BufTy).Contents (Elt F) → (⟨S4096x14x14x20, .f32⟩ : BufTy).Contents (Elt F)),
    nullary main_cst (constant S_ .f32 0x3F800000#32),
    unary main_cst main_v8 (broadcastInDim S4096x14x14x2 ![] bcast_S_S4096x14x14x2 : (⟨S_, .f32⟩ : BufTy).Contents (Elt F) → (⟨S4096x14x14x2, .f32⟩ : BufTy).Contents (Elt F)),
    binary main_v1 main_v8 main_v9 (cmpf .oeq : (⟨S4096x14x14x2, .f32⟩ : BufTy).Contents (Elt F) → (⟨S4096x14x14x2, .f32⟩ : BufTy).Contents (Elt F) → (⟨S4096x14x14x2, .i1⟩ : BufTy).Contents (Elt F)),
    nullary main_c (constantI S_ 1 0#1),
    binary main_v9 main_c main_v10 ((fun x v => Host.reduce IntOp.ori x v reducesTo_S4096x14x14x2_S4096x14x14_d3 h_S_) : (⟨S4096x14x14x2, .i1⟩ : BufTy).Contents (Elt F) → (⟨S_, .i1⟩ : BufTy).Contents (Elt F) → (⟨S4096x14x14, .i1⟩ : BufTy).Contents (Elt F)),
    unary main_v9 main_v11 ((extui 32 · natLt_1_32) : (⟨S4096x14x14x2, .i1⟩ : BufTy).Contents (Elt F) → (⟨S4096x14x14x2, .i32⟩ : BufTy).Contents (Elt F)),
    TRef.nullary main_call0.call0.c (constantI S_ 32 0#32),
    TRef.unary main_call0.call0.c main_call0.call0.v0 (broadcastInDim S_ ![] bcast_S_S_),
    TRef.binary (.of main_v11 : TRef sig ⟨S4096x14x14x2, .i32⟩) main_call0.call0.v0 main_call0.call0.v1 (fun x v => Host.reduceWindow IntOp.addi ![1, 1, 1, 2] ![1, 1, 1, 1] ![0, 0, 0, 1] ![0, 0, 0, 0] x v reduceWindows_S4096x14x14x2_S4096x14x14x2_w1s1p0_0_w1s1p0_0_w1s1p0_0_w2s1p1_0 h_S_),
    nullary main_c_0 (constantI S_ 32 1#32),
    unary main_c_0 main_v13 (broadcastInDim S4096x14x14x2 ![] bcast_S_S4096x14x14x2 : (⟨S_, .i32⟩ : BufTy).Contents (Elt F) → (⟨S4096x14x14x2, .i32⟩ : BufTy).Contents (Elt F)),
    binary main_v12 main_v13 main_v14 (cmpi .eq : (⟨S4096x14x14x2, .i32⟩ : BufTy).Contents (Elt F) → (⟨S4096x14x14x2, .i32⟩ : BufTy).Contents (Elt F) → (⟨S4096x14x14x2, .i1⟩ : BufTy).Contents (Elt F)),
    binary main_v9 main_v14 main_v15 (andi : (⟨S4096x14x14x2, .i1⟩ : BufTy).Contents (Elt F) → (⟨S4096x14x14x2, .i1⟩ : BufTy).Contents (Elt F) → (⟨S4096x14x14x2, .i1⟩ : BufTy).Contents (Elt F)),
    unary main_v15 main_v16 (uitofp .f32 : (⟨S4096x14x14x2, .i1⟩ : BufTy).Contents (Elt F) → (⟨S4096x14x14x2, .f32⟩ : BufTy).Contents (Elt F)),
    unary main_v3 main_v17 ((extractStridedSlice S4096x14x14x2x2 ![0, 0, 0, 0, 0] · slices_S4096x14x14x2x4_S4096x14x14x2x2_0_0_0_0_0) : (⟨S4096x14x14x2x4, .f32⟩ : BufTy).Contents (Elt F) → (⟨S4096x14x14x2x2, .f32⟩ : BufTy).Contents (Elt F)),
    unary main_v5 main_v18 ((extractStridedSlice S4096x14x14x2x2 ![0, 0, 0, 0, 0] · slices_S4096x14x14x2x4_S4096x14x14x2x2_0_0_0_0_0) : (⟨S4096x14x14x2x4, .f32⟩ : BufTy).Contents (Elt F) → (⟨S4096x14x14x2x2, .f32⟩ : BufTy).Contents (Elt F)),
    binary main_v17 main_v18 main_v19 (subf : (⟨S4096x14x14x2x2, .f32⟩ : BufTy).Contents (Elt F) → (⟨S4096x14x14x2x2, .f32⟩ : BufTy).Contents (Elt F) → (⟨S4096x14x14x2x2, .f32⟩ : BufTy).Contents (Elt F)),
    binary main_v19 main_v19 main_v20 (mulf : (⟨S4096x14x14x2x2, .f32⟩ : BufTy).Contents (Elt F) → (⟨S4096x14x14x2x2, .f32⟩ : BufTy).Contents (Elt F) → (⟨S4096x14x14x2x2, .f32⟩ : BufTy).Contents (Elt F)),
    nullary main_cst_1 (constant S_ .f32 0x00000000#32),
    binary main_v20 main_cst_1 main_v21 ((fun x v => Host.reduceAdd x v reducesTo_S4096x14x14x2x2_S4096x14x14x2_d4 h_S_) : (⟨S4096x14x14x2x2, .f32⟩ : BufTy).Contents (Elt F) → (⟨S_, .f32⟩ : BufTy).Contents (Elt F) → (⟨S4096x14x14x2, .f32⟩ : BufTy).Contents (Elt F)),
    unary main_v3 main_v22 ((extractStridedSlice S4096x14x14x2x2 ![0, 0, 0, 0, 2] · slices_S4096x14x14x2x4_S4096x14x14x2x2_0_0_0_0_2) : (⟨S4096x14x14x2x4, .f32⟩ : BufTy).Contents (Elt F) → (⟨S4096x14x14x2x2, .f32⟩ : BufTy).Contents (Elt F)),
    unary main_v22 main_v23 (Host.sqrt : (⟨S4096x14x14x2x2, .f32⟩ : BufTy).Contents (Elt F) → (⟨S4096x14x14x2x2, .f32⟩ : BufTy).Contents (Elt F)),
    unary main_v5 main_v24 ((extractStridedSlice S4096x14x14x2x2 ![0, 0, 0, 0, 2] · slices_S4096x14x14x2x4_S4096x14x14x2x2_0_0_0_0_2) : (⟨S4096x14x14x2x4, .f32⟩ : BufTy).Contents (Elt F) → (⟨S4096x14x14x2x2, .f32⟩ : BufTy).Contents (Elt F)),
    unary main_v24 main_v25 (Host.sqrt : (⟨S4096x14x14x2x2, .f32⟩ : BufTy).Contents (Elt F) → (⟨S4096x14x14x2x2, .f32⟩ : BufTy).Contents (Elt F)),
    binary main_v23 main_v25 main_v26 (subf : (⟨S4096x14x14x2x2, .f32⟩ : BufTy).Contents (Elt F) → (⟨S4096x14x14x2x2, .f32⟩ : BufTy).Contents (Elt F) → (⟨S4096x14x14x2x2, .f32⟩ : BufTy).Contents (Elt F)),
    binary main_v26 main_v26 main_v27 (mulf : (⟨S4096x14x14x2x2, .f32⟩ : BufTy).Contents (Elt F) → (⟨S4096x14x14x2x2, .f32⟩ : BufTy).Contents (Elt F) → (⟨S4096x14x14x2x2, .f32⟩ : BufTy).Contents (Elt F)),
    nullary main_cst_2 (constant S_ .f32 0x00000000#32),
    binary main_v27 main_cst_2 main_v28 ((fun x v => Host.reduceAdd x v reducesTo_S4096x14x14x2x2_S4096x14x14x2_d4 h_S_) : (⟨S4096x14x14x2x2, .f32⟩ : BufTy).Contents (Elt F) → (⟨S_, .f32⟩ : BufTy).Contents (Elt F) → (⟨S4096x14x14x2, .f32⟩ : BufTy).Contents (Elt F)),
    binary main_v0 main_v1 main_v29 (subf : (⟨S4096x14x14x2, .f32⟩ : BufTy).Contents (Elt F) → (⟨S4096x14x14x2, .f32⟩ : BufTy).Contents (Elt F) → (⟨S4096x14x14x2, .f32⟩ : BufTy).Contents (Elt F)),
    binary main_v29 main_v29 main_v30 (mulf : (⟨S4096x14x14x2, .f32⟩ : BufTy).Contents (Elt F) → (⟨S4096x14x14x2, .f32⟩ : BufTy).Contents (Elt F) → (⟨S4096x14x14x2, .f32⟩ : BufTy).Contents (Elt F)),
    binary main_v16 main_v21 main_v31 (mulf : (⟨S4096x14x14x2, .f32⟩ : BufTy).Contents (Elt F) → (⟨S4096x14x14x2, .f32⟩ : BufTy).Contents (Elt F) → (⟨S4096x14x14x2, .f32⟩ : BufTy).Contents (Elt F)),
    nullary main_cst_3 (constant S_ .f32 0x00000000#32),
    binary main_v31 main_cst_3 main_v32 ((fun x v => Host.reduceAdd x v reducesTo_S4096x14x14x2_S_d0_1_2_3 h_S_) : (⟨S4096x14x14x2, .f32⟩ : BufTy).Contents (Elt F) → (⟨S_, .f32⟩ : BufTy).Contents (Elt F) → (⟨S_, .f32⟩ : BufTy).Contents (Elt F)),
    binary main_v16 main_v28 main_v33 (mulf : (⟨S4096x14x14x2, .f32⟩ : BufTy).Contents (Elt F) → (⟨S4096x14x14x2, .f32⟩ : BufTy).Contents (Elt F) → (⟨S4096x14x14x2, .f32⟩ : BufTy).Contents (Elt F)),
    nullary main_cst_4 (constant S_ .f32 0x00000000#32),
    binary main_v33 main_cst_4 main_v34 ((fun x v => Host.reduceAdd x v reducesTo_S4096x14x14x2_S_d0_1_2_3 h_S_) : (⟨S4096x14x14x2, .f32⟩ : BufTy).Contents (Elt F) → (⟨S_, .f32⟩ : BufTy).Contents (Elt F) → (⟨S_, .f32⟩ : BufTy).Contents (Elt F)),
    binary main_v16 main_v30 main_v35 (mulf : (⟨S4096x14x14x2, .f32⟩ : BufTy).Contents (Elt F) → (⟨S4096x14x14x2, .f32⟩ : BufTy).Contents (Elt F) → (⟨S4096x14x14x2, .f32⟩ : BufTy).Contents (Elt F)),
    nullary main_cst_5 (constant S_ .f32 0x00000000#32),
    binary main_v35 main_cst_5 main_v36 ((fun x v => Host.reduceAdd x v reducesTo_S4096x14x14x2_S_d0_1_2_3 h_S_) : (⟨S4096x14x14x2, .f32⟩ : BufTy).Contents (Elt F) → (⟨S_, .f32⟩ : BufTy).Contents (Elt F) → (⟨S_, .f32⟩ : BufTy).Contents (Elt F)),
    unary main_v10 main_v37 (uitofp .f32 : (⟨S4096x14x14, .i1⟩ : BufTy).Contents (Elt F) → (⟨S4096x14x14, .f32⟩ : BufTy).Contents (Elt F)),
    binary main_v6 main_v7 main_v38 (subf : (⟨S4096x14x14x20, .f32⟩ : BufTy).Contents (Elt F) → (⟨S4096x14x14x20, .f32⟩ : BufTy).Contents (Elt F) → (⟨S4096x14x14x20, .f32⟩ : BufTy).Contents (Elt F)),
    binary main_v38 main_v38 main_v39 (mulf : (⟨S4096x14x14x20, .f32⟩ : BufTy).Contents (Elt F) → (⟨S4096x14x14x20, .f32⟩ : BufTy).Contents (Elt F) → (⟨S4096x14x14x20, .f32⟩ : BufTy).Contents (Elt F)),
    nullary main_cst_6 (constant S_ .f32 0x00000000#32),
    binary main_v39 main_cst_6 main_v40 ((fun x v => Host.reduceAdd x v reducesTo_S4096x14x14x20_S4096x14x14_d3 h_S_) : (⟨S4096x14x14x20, .f32⟩ : BufTy).Contents (Elt F) → (⟨S_, .f32⟩ : BufTy).Contents (Elt F) → (⟨S4096x14x14, .f32⟩ : BufTy).Contents (Elt F)),
    binary main_v37 main_v40 main_v41 (mulf : (⟨S4096x14x14, .f32⟩ : BufTy).Contents (Elt F) → (⟨S4096x14x14, .f32⟩ : BufTy).Contents (Elt F) → (⟨S4096x14x14, .f32⟩ : BufTy).Contents (Elt F)),
    nullary main_cst_7 (constant S_ .f32 0x00000000#32),
    binary main_v41 main_cst_7 main_v42 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    unary main_v10 main_v43 (noti : (⟨S4096x14x14, .i1⟩ : BufTy).Contents (Elt F) → (⟨S4096x14x14, .i1⟩ : BufTy).Contents (Elt F)),
    unary main_v43 main_v44 (uitofp .f32 : (⟨S4096x14x14, .i1⟩ : BufTy).Contents (Elt F) → (⟨S4096x14x14, .f32⟩ : BufTy).Contents (Elt F)),
    unary main_v44 main_v45 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v45 main_v46 (broadcastInDim S4096x14x14x2 ![0, 1, 2, 3] bcast_S4096x14x14x1_S4096x14x14x2_0_1_2_3 : (⟨S4096x14x14x1, .f32⟩ : BufTy).Contents (Elt F) → (⟨S4096x14x14x2, .f32⟩ : BufTy).Contents (Elt F)),
    binary main_v46 main_v30 main_v47 (mulf : (⟨S4096x14x14x2, .f32⟩ : BufTy).Contents (Elt F) → (⟨S4096x14x14x2, .f32⟩ : BufTy).Contents (Elt F) → (⟨S4096x14x14x2, .f32⟩ : BufTy).Contents (Elt F)),
    nullary main_cst_8 (constant S_ .f32 0x00000000#32),
    binary main_v47 main_cst_8 main_v48 ((fun x v => Host.reduceAdd x v reducesTo_S4096x14x14x2_S_d0_1_2_3 h_S_) : (⟨S4096x14x14x2, .f32⟩ : BufTy).Contents (Elt F) → (⟨S_, .f32⟩ : BufTy).Contents (Elt F) → (⟨S_, .f32⟩ : BufTy).Contents (Elt F)),
    binary main_v32 main_v34 main_v49 (addf : (⟨S_, .f32⟩ : BufTy).Contents (Elt F) → (⟨S_, .f32⟩ : BufTy).Contents (Elt F) → (⟨S_, .f32⟩ : BufTy).Contents (Elt F)),
    nullary main_cst_9 (constant S_ .f32 0x40A00000#32),
    binary main_cst_9 main_v49 main_v50 (mulf : (⟨S_, .f32⟩ : BufTy).Contents (Elt F) → (⟨S_, .f32⟩ : BufTy).Contents (Elt F) → (⟨S_, .f32⟩ : BufTy).Contents (Elt F)),
    nullary main_cst_10 (constant S_ .f32 0x3F000000#32),
    binary main_cst_10 main_v48 main_v51 (mulf : (⟨S_, .f32⟩ : BufTy).Contents (Elt F) → (⟨S_, .f32⟩ : BufTy).Contents (Elt F) → (⟨S_, .f32⟩ : BufTy).Contents (Elt F)),
    binary main_v50 main_v51 main_v52 (addf : (⟨S_, .f32⟩ : BufTy).Contents (Elt F) → (⟨S_, .f32⟩ : BufTy).Contents (Elt F) → (⟨S_, .f32⟩ : BufTy).Contents (Elt F)),
    binary main_v52 main_v36 main_v53 (addf : (⟨S_, .f32⟩ : BufTy).Contents (Elt F) → (⟨S_, .f32⟩ : BufTy).Contents (Elt F) → (⟨S_, .f32⟩ : BufTy).Contents (Elt F)),
    binary main_v53 main_v42 main_v54 (addf : (⟨S_, .f32⟩ : BufTy).Contents (Elt F) → (⟨S_, .f32⟩ : BufTy).Contents (Elt F) → (⟨S_, .f32⟩ : BufTy).Contents (Elt F)),
    nullary main_cst_11 (constant S_ .f32 0x45800000#32),
    binary main_v54 main_cst_11 main_v55 (Host.divf : (⟨S_, .f32⟩ : BufTy).Contents (Elt F) → (⟨S_, .f32⟩ : BufTy).Contents (Elt F) → (⟨S_, .f32⟩ : BufTy).Contents (Elt F)) ]

-- seventy-two binds re-associated: the rewriting recurses once per statement
set_option maxRecDepth 8192 in
set_option maxHeartbeats 4000000 in
/-- @main is that straight line: its two windows in order, the helper's body unfolded at the call and the call's record
    at its fields; both sides are one chain of steps once sequencing is re-associated. -/
theorem main_eq (c : Dev nD) : main (F := F) c = seq ops := by
  simp only [main, main_part0, main_part1, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    unary_bufs_sub .., unary_bufs_sub .., unary_bufs_sub .., reshape_bufs_sub .., unary_bufs_sub .., reshape_bufs_sub ..,
    unary_bufs_sub .., unary_bufs_sub .., nullary_bufs_sub .., unary_bufs_sub .., binary_bufs_sub .., nullary_bufs_sub ..,
    binary_bufs_sub .., unary_bufs_sub .., nullary_bufs_sub .., unary_bufs_sub .., binary_bufs_sub .., nullary_bufs_sub ..,
    unary_bufs_sub .., binary_bufs_sub .., binary_bufs_sub .., unary_bufs_sub .., unary_bufs_sub .., unary_bufs_sub ..,
    binary_bufs_sub .., binary_bufs_sub .., nullary_bufs_sub .., binary_bufs_sub .., unary_bufs_sub .., unary_bufs_sub ..,
    unary_bufs_sub .., unary_bufs_sub .., binary_bufs_sub .., binary_bufs_sub .., nullary_bufs_sub .., binary_bufs_sub ..,
    binary_bufs_sub .., binary_bufs_sub .., binary_bufs_sub .., nullary_bufs_sub .., binary_bufs_sub .., binary_bufs_sub ..,
    nullary_bufs_sub .., binary_bufs_sub .., binary_bufs_sub .., nullary_bufs_sub .., binary_bufs_sub .., unary_bufs_sub ..,
    binary_bufs_sub .., binary_bufs_sub .., nullary_bufs_sub .., binary_bufs_sub .., binary_bufs_sub .., nullary_bufs_sub ..,
    binary_bufs_sub .., unary_bufs_sub .., unary_bufs_sub .., unary_bufs_sub .., unary_bufs_sub .., binary_bufs_sub ..,
    nullary_bufs_sub .., binary_bufs_sub .., binary_bufs_sub .., nullary_bufs_sub .., binary_bufs_sub .., nullary_bufs_sub ..,
    binary_bufs_sub .., binary_bufs_sub .., binary_bufs_sub .., binary_bufs_sub .., nullary_bufs_sub .., binary_bufs_sub ..⟩

/-! ## The result as one term -/

/-- The squared difference, elementwise. -/
def sqd {s : Shape} (a b : FVec F s .f32) : FVec F s .f32 := mulf (subf a b) (subf a b)

/-- The two confidence channels of every cell. -/
def conf (X : FVec F S4096x14x14x30 .f32) : FVec F S4096x14x14x2 .f32 :=
  extractStridedSlice S4096x14x14x2 ![0, 0, 0, 0] X slices_S4096x14x14x30_S4096x14x14x2_0_0_0_0

/-- The two boxes of every cell: channels 2 … 9 regrouped as 2 × 4. -/
def box (X : FVec F S4096x14x14x30 .f32) : FVec F S4096x14x14x2x4 .f32 :=
  shapeCast S4096x14x14x2x4 (extractStridedSlice S4096x14x14x8 ![0, 0, 0, 2] X slices_S4096x14x14x30_S4096x14x14x8_0_0_0_2)
    shapeCasts_S4096x14x14x8_S4096x14x14x2x4

/-- The twenty class channels of every cell. -/
def cls (X : FVec F S4096x14x14x30 .f32) : FVec F S4096x14x14x20 .f32 :=
  extractStridedSlice S4096x14x14x20 ![0, 0, 0, 10] X slices_S4096x14x14x30_S4096x14x14x20_0_0_0_10

/-- Which boxes are marked: the target's confidence compares equal to one. -/
def obj (ct : FVec F S4096x14x14x2 .f32) : IVec S4096x14x14x2 1 :=
  cmpf .oeq ct (broadcastInDim S4096x14x14x2 ![] bcast_S_S4096x14x14x2 (constant S_ .f32 0x3F800000#32))

/-- Whether a cell has a marked box: the disjunction over its two boxes, from false. -/
def hasObj (o : IVec S4096x14x14x2 1) : IVec S4096x14x14 1 :=
  Host.reduce IntOp.ori o (constantI S_ 1 0#1) reducesTo_S4096x14x14x2_S4096x14x14_d3 h_S_

/-- The running sum over the last axis (extent two): a window of two, padded by one below with zero. -/
def cumsum (n : IVec S4096x14x14x2 32) : IVec S4096x14x14x2 32 :=
  Host.reduceWindow IntOp.addi ![1, 1, 1, 2] ![1, 1, 1, 1] ![0, 0, 0, 1] ![0, 0, 0, 0] n
    (broadcastInDim S_ ![] bcast_S_S_ (constantI S_ 32 0#32))
    reduceWindows_S4096x14x14x2_S4096x14x14x2_w1s1p0_0_w1s1p0_0_w1s1p0_0_w2s1p1_0 h_S_

/-- The first marked box of a cell, as the number 0 or 1: marked, and the count of marks up to this box is one. -/
def first (o : IVec S4096x14x14x2 1) : FVec F S4096x14x14x2 .f32 :=
  uitofp .f32
    (andi o (cmpi .eq (cumsum (extui 32 o natLt_1_32))
      (broadcastInDim S4096x14x14x2 ![] bcast_S_S4096x14x14x2 (constantI S_ 32 1#32))))

/-- Per box: the squared distance of the first two coordinates. -/
def sqXY (bp bt : FVec F S4096x14x14x2x4 .f32) : FVec F S4096x14x14x2 .f32 :=
  Host.reduceAdd
    (sqd (extractStridedSlice S4096x14x14x2x2 ![0, 0, 0, 0, 0] bp slices_S4096x14x14x2x4_S4096x14x14x2x2_0_0_0_0_0)
      (extractStridedSlice S4096x14x14x2x2 ![0, 0, 0, 0, 0] bt slices_S4096x14x14x2x4_S4096x14x14x2x2_0_0_0_0_0))
    (constant S_ .f32 0x00000000#32) reducesTo_S4096x14x14x2x2_S4096x14x14x2_d4 h_S_

/-- Per box: the squared distance of the square roots of the last two coordinates. -/
def sqWH (bp bt : FVec F S4096x14x14x2x4 .f32) : FVec F S4096x14x14x2 .f32 :=
  Host.reduceAdd
    (sqd (Host.sqrt (extractStridedSlice S4096x14x14x2x2 ![0, 0, 0, 0, 2] bp slices_S4096x14x14x2x4_S4096x14x14x2x2_0_0_0_0_2))
      (Host.sqrt (extractStridedSlice S4096x14x14x2x2 ![0, 0, 0, 0, 2] bt slices_S4096x14x14x2x4_S4096x14x14x2x2_0_0_0_0_2)))
    (constant S_ .f32 0x00000000#32) reducesTo_S4096x14x14x2x2_S4096x14x14x2_d4 h_S_

/-- Per cell: the squared distance of the class channels. -/
def clsSq (kp kt : FVec F S4096x14x14x20 .f32) : FVec F S4096x14x14 .f32 :=
  Host.reduceAdd (sqd kp kt) (constant S_ .f32 0x00000000#32) reducesTo_S4096x14x14x20_S4096x14x14_d3 h_S_

/-- The total of a per-box array over all cells and boxes, from zero. -/
def total4 (a : FVec F S4096x14x14x2 .f32) : FVec F S_ .f32 :=
  Host.reduceAdd a (constant S_ .f32 0x00000000#32) reducesTo_S4096x14x14x2_S_d0_1_2_3 h_S_

/-- The total of a per-cell array over all cells, from zero. -/
def total3 (a : FVec F S4096x14x14 .f32) : FVec F S_ .f32 :=
  Host.reduceAdd a (constant S_ .f32 0x00000000#32) reducesTo_S4096x14x14_S_d0_1_2 h_S_

/-- Per box: one where the cell has no marked box, else zero (the per-cell number repeated over the two boxes). -/
def noObj (h : IVec S4096x14x14 1) : FVec F S4096x14x14x2 .f32 :=
  broadcastInDim S4096x14x14x2 ![0, 1, 2, 3] bcast_S4096x14x14x1_S4096x14x14x2_0_1_2_3
    (broadcastInDim S4096x14x14x1 ![0, 1, 2] bcast_S4096x14x14_S4096x14x14x1_0_1_2 (uitofp .f32 (noti h)))

/-- What the reference computes from its two arguments' contents: five times the coordinate and size totals of the
    first marked boxes, plus half the confidence total of the cells with no marked box, plus the confidence total of the
    first marked boxes, plus the class total of the cells with a marked box; divided by 4096. -/
def refOut [Cert.ReferenceIdeal.Facts] (X T : (⟨S4096x14x14x30, .f32⟩ : BufTy).Contents (Elt F)) :
    (⟨S_, .f32⟩ : BufTy).Contents (Elt F) :=
  Host.divf
    (addf
      (addf
        (addf
          (mulf (constant S_ .f32 0x40A00000#32)
            (addf (total4 (mulf (first (obj (conf T))) (sqXY (box X) (box T))))
              (total4 (mulf (first (obj (conf T))) (sqWH (box X) (box T))))))
          (mulf (constant S_ .f32 0x3F000000#32) (total4 (mulf (noObj (hasObj (obj (conf T)))) (sqd (conf X) (conf T))))))
        (total4 (mulf (first (obj (conf T))) (sqd (conf X) (conf T)))))
      (total3 (mulf (uitofp .f32 (hasObj (obj (conf T)))) (clsSq (cls X) (cls T)))))
    (constant S_ .f32 0x45800000#32)

/-! ## The run -/

attribute [local irreducible] Host.reduce Host.reduceWindow in
set_option maxRecDepth 8192 in
set_option maxHeartbeats 30000000 in
/-- The fold of the operations at the result buffer is `refOut` of the argument buffers' contents: each operation's
    result at its own buffer is its function of its operands' contents, at any other buffer what was there; the
    regrouping's change of element type and the call's typed buffers are the identity at these buffers. The disjunction
    and the windowed sum are kept folded meanwhile: the equation never looks inside them. -/
theorem out_eq (V : Valuation τ sig (Elt F)) :
    after ops V (main_v55 : DevRef τ sig) = refOut (V (main_arg0 : DevRef τ sig)) (V (main_arg1 : DevRef τ sig)) := by
  after_results_simp
  rfl

set_option maxRecDepth 8192 in
set_option maxHeartbeats 30000000 in
theorem arg0_eq (V : Valuation τ sig (Elt F)) :
    after ops V (main_arg0 : DevRef τ sig) = V (main_arg0 : DevRef τ sig) := by
  after_results_simp

set_option maxRecDepth 8192 in
set_option maxHeartbeats 30000000 in
theorem arg1_eq (V : Valuation τ sig (Elt F)) :
    after ops V (main_arg1 : DevRef τ sig) = V (main_arg1 : DevRef τ sig) := by
  after_results_simp

set_option maxRecDepth 8192 in
set_option maxHeartbeats 4000000 in
/-- On every device, for any float values, from any memory with zero counters: every weakly fair execution of @main
    terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v55).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RefValue

end
-- ==== Proof.RefRead.lean ====
/-
  The reference's result at the ideal values, as a closed formula.

  `refOut X T` (the one term the reference's run leaves in its result buffer) is read stage by stage at an index of
  explicit coordinates — image `n`, cell `(y, x)`, box `b`, channel `k` — until nothing but the two argument arrays at
  explicit channels is left:
    · a slice reads its operand with the offset added on the last axis, and the regrouping 8 → 2 × 4 reads channel
      `4 b + k` of the slice, so box `b`'s coordinate `k` is channel `2 + 4 b + k` of the array;
    · a sum over ONE axis from zero is the finite sum over that axis's coordinates, and a sum over ALL axes from zero is the
      sum over every index;
    · the disjunction over the two boxes from false is `p₀ ||| p₁`;
    · the running sum over the two boxes (a window of two, one position of zero padding below) is `0 + 0 + c₀` at box 0
      and `0 + c₀ + c₁` at box 1, so "marked, and the count of marks so far is one" is `p₀` at box 0 and
      `p₁ &&& ¬p₀` at box 1: the first marked box;
    · a one-bit word converted to a float is the number 0 or 1.
  The five totals are then the five sums of the specification, term by term.
-/
import proofs.«149795_j16329465659932_2_alg».proof.Proof.RefRun
import proofs.«149795_j16329465659932_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Layout operations at an index -/

section Index
variable {α : Type}

/-- The confidence slice at (n, y, x, b) is the array at channel b. -/
theorem slice_conf (X : S4096x14x14x30.Idx → α) (n : Fin 4096) (y x : Fin 14) (b : Fin 2) :
    extractStridedSlice S4096x14x14x2 ![0, 0, 0, 0] X slices_S4096x14x14x30_S4096x14x14x2_0_0_0_0 (ix4 n y x b)
      = X (ix4 n y x (Yolo.chanC b)) :=
  extractStridedSlice_apply _ X _ (ix4 n y x b) (ix4 n y x (Yolo.chanC b)) fun a =>
    match a with
    | ⟨0, _⟩ => by show n.val = 0 + n.val; omega
    | ⟨1, _⟩ => by show y.val = 0 + y.val; omega
    | ⟨2, _⟩ => by show x.val = 0 + x.val; omega
    | ⟨3, _⟩ => by show b.val = 0 + b.val; omega

/-- The class slice at (n, y, x, k) is the array at channel 10 + k. -/
theorem slice_cls (X : S4096x14x14x30.Idx → α) (n : Fin 4096) (y x : Fin 14) (k : Fin 20) :
    extractStridedSlice S4096x14x14x20 ![0, 0, 0, 10] X slices_S4096x14x14x30_S4096x14x14x20_0_0_0_10 (ix4 n y x k)
      = X (ix4 n y x (Yolo.chanK k)) :=
  extractStridedSlice_apply _ X _ (ix4 n y x k) (ix4 n y x (Yolo.chanK k)) fun a =>
    match a with
    | ⟨0, _⟩ => by show n.val = 0 + n.val; omega
    | ⟨1, _⟩ => by show y.val = 0 + y.val; omega
    | ⟨2, _⟩ => by show x.val = 0 + x.val; omega
    | ⟨3, _⟩ => by show 10 + k.val = 10 + k.val; omega

/-- The box slice regrouped 2 × 4, at (n, y, x, b, k), is the array at channel 2 + 4 b + k. -/
theorem box_read (X : S4096x14x14x30.Idx → α) (n : Fin 4096) (y x : Fin 14) (b : Fin 2) (k : Fin 4) (c : Fin 30)
    (hc : c.val = 2 + 4 * b.val + k.val) :
    shapeCast S4096x14x14x2x4 (extractStridedSlice S4096x14x14x8 ![0, 0, 0, 2] X slices_S4096x14x14x30_S4096x14x14x8_0_0_0_2)
        shapeCasts_S4096x14x14x8_S4096x14x14x2x4 (ix5 n y x b k)
      = X (ix4 n y x c) := by
  refine (shapeCast_apply _ shapeCasts_S4096x14x14x8_S4096x14x14x2x4 (ix5 n y x b k)
    (ix4 n y x (⟨4 * b.val + k.val, by omega⟩ : Fin 8)) ?_).trans ?_
  · rw [Shape.rowMajor_val_four, Shape.rowMajor_val_five]
    show ((n.val * 14 + y.val) * 14 + x.val) * 8 + (4 * b.val + k.val)
      = (((n.val * 14 + y.val) * 14 + x.val) * 2 + b.val) * 4 + k.val
    omega
  · exact extractStridedSlice_apply _ X _ _ (ix4 n y x c) fun a =>
      match a with
      | ⟨0, _⟩ => by show n.val = 0 + n.val; omega
      | ⟨1, _⟩ => by show y.val = 0 + y.val; omega
      | ⟨2, _⟩ => by show x.val = 0 + x.val; omega
      | ⟨3, _⟩ => by show c.val = 2 + (4 * b.val + k.val); omega

/-- The first two coordinates of a box. -/
theorem slice_box0 (B : S4096x14x14x2x4.Idx → α) (n : Fin 4096) (y x : Fin 14) (b k : Fin 2) :
    extractStridedSlice S4096x14x14x2x2 ![0, 0, 0, 0, 0] B slices_S4096x14x14x2x4_S4096x14x14x2x2_0_0_0_0_0 (ix5 n y x b k)
      = B (ix5 n y x b (⟨k.val, by omega⟩ : Fin 4)) :=
  extractStridedSlice_apply _ B _ (ix5 n y x b k) (ix5 n y x b (⟨k.val, by omega⟩ : Fin 4)) fun a =>
    match a with
    | ⟨0, _⟩ => by show n.val = 0 + n.val; omega
    | ⟨1, _⟩ => by show y.val = 0 + y.val; omega
    | ⟨2, _⟩ => by show x.val = 0 + x.val; omega
    | ⟨3, _⟩ => by show b.val = 0 + b.val; omega
    | ⟨4, _⟩ => by show k.val = 0 + k.val; omega

/-- The last two coordinates of a box. -/
theorem slice_box2 (B : S4096x14x14x2x4.Idx → α) (n : Fin 4096) (y x : Fin 14) (b k : Fin 2) :
    extractStridedSlice S4096x14x14x2x2 ![0, 0, 0, 0, 2] B slices_S4096x14x14x2x4_S4096x14x14x2x2_0_0_0_0_2 (ix5 n y x b k)
      = B (ix5 n y x b (⟨2 + k.val, by omega⟩ : Fin 4)) :=
  extractStridedSlice_apply _ B _ (ix5 n y x b k) (ix5 n y x b (⟨2 + k.val, by omega⟩ : Fin 4)) fun a =>
    match a with
    | ⟨0, _⟩ => by show n.val = 0 + n.val; omega
    | ⟨1, _⟩ => by show y.val = 0 + y.val; omega
    | ⟨2, _⟩ => by show x.val = 0 + x.val; omega
    | ⟨3, _⟩ => by show b.val = 0 + b.val; omega
    | ⟨4, _⟩ => by show 2 + k.val = 2 + k.val; omega

/-- A per-cell array repeated over the two boxes, read at a box, is the array at the cell. -/
theorem bcast_cell (v : S4096x14x14.Idx → α) (n : Fin 4096) (y x : Fin 14) (b : Fin 2) :
    broadcastInDim S4096x14x14x2 ![0, 1, 2, 3] bcast_S4096x14x14x1_S4096x14x14x2_0_1_2_3
        (broadcastInDim S4096x14x14x1 ![0, 1, 2] bcast_S4096x14x14_S4096x14x14x1_0_1_2 v) (ix4 n y x b)
      = v (ix3 n y x) := by
  refine (broadcastInDim_apply _ bcast_S4096x14x14x1_S4096x14x14x2_0_1_2_3 _ (ix4 n y x b) (ix4 n y x (0 : Fin 1)) fun a => ?_).trans
    (broadcastInDim_apply _ bcast_S4096x14x14_S4096x14x14x1_0_1_2 v (ix4 n y x (0 : Fin 1)) (ix3 n y x) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

end Index

/-! ## The one-axis reductions' inserted indices -/

theorem lift_box (hR : S4096x14x14x2x2.Reduces [4] S4096x14x14x2) (n : Fin 4096) (y x : Fin 14) (b : Fin 2) (k : Fin 2) :
    hR.lift (ix4 n y x b) k = ix5 n y x b k := by
  funext c
  match c with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

theorem lift_cls (hR : S4096x14x14x20.Reduces [3] S4096x14x14) (n : Fin 4096) (y x : Fin 14) (k : Fin 20) :
    hR.lift (ix3 n y x) k = ix4 n y x k := by
  funext c
  match c with
  | ⟨0, _⟩ => exact Fin.ext rfl
  | ⟨1, _⟩ => exact Fin.ext rfl
  | ⟨2, _⟩ => exact Fin.ext rfl
  | ⟨3, _⟩ => exact Fin.ext rfl

theorem lift_obj (hR : S4096x14x14x2.Reduces [3] S4096x14x14) (n : Fin 4096) (y x : Fin 14) (k : Fin 2) :
    hR.lift (ix3 n y x) k = ix4 n y x k := by
  funext c
  match c with
  | ⟨0, _⟩ => exact Fin.ext rfl
  | ⟨1, _⟩ => exact Fin.ext rfl
  | ⟨2, _⟩ => exact Fin.ext rfl
  | ⟨3, _⟩ => exact Fin.ext rfl

/-! ## Words -/

/-- The disjunction of a two-element family from false. -/
theorem fold_ori2 (g : Fin 2 → BitVec 1) :
    (Finset.univ : Finset (Fin 2)).fold IntOp.ori 0#1 g = g 0 ||| g 1 := by
  rw [show (Finset.univ : Finset (Fin 2)) = {0, 1} from rfl]
  rw [Finset.fold_insert (by decide), Finset.fold_singleton]
  show g 0 ||| (g 1 ||| 0#1) = g 0 ||| g 1
  rw [BitVec.or_zero]

/-- Box 0 is the first marked box exactly when it is marked. -/
theorem first_word0 (p0 : BitVec 1) :
    IntOp.andi p0 (IntOp.cmpi .eq (IntOp.addi (IntOp.addi 0#32 0#32) (p0.setWidth 32)) 1#32) = p0 := by
  rcases BitVec.eq_zero_or_eq_one p0 with h | h <;> subst h <;> decide

/-- Box 1 is the first marked box exactly when it is marked and box 0 is not. -/
theorem first_word1 (p0 p1 : BitVec 1) :
    IntOp.andi p1 (IntOp.cmpi .eq (IntOp.addi (IntOp.addi 0#32 (p0.setWidth 32)) (p1.setWidth 32)) 1#32)
      = p1 &&& (p0 ^^^ 1#1) := by
  rcases BitVec.eq_zero_or_eq_one p0 with h | h <;> rcases BitVec.eq_zero_or_eq_one p1 with h' | h' <;>
    subst h <;> subst h' <;> decide

/-- The complement of a one-bit word. -/
theorem not_word (p : BitVec 1) : ~~~p = p ^^^ 1#1 := by
  rcases BitVec.eq_zero_or_eq_one p with h | h <;> subst h <;> decide

/-- A conditional whose two branches are both a given value. -/
theorem dite_eq_of {c : Prop} [Decidable c] {α : Type} (t : c → α) (e b : α) (hpos : ∀ h : c, t h = b) (hneg : ¬c → e = b) :
    dite c t (fun _ => e) = b := by
  by_cases h : c
  · rw [dif_pos h]; exact hpos h
  · rw [dif_neg h]; exact hneg h

/-! ## The running sum over the two boxes -/

/-- The windowed sum over the last axis (extent two; a window of two, one position of padding below), read at each of the
    two positions: the fold visits the window's two positions; at box 0 the first is padding and the second is box 0,
    at box 1 they are box 0 and box 1. -/
theorem windowSum_read (c : IVec S4096x14x14x2 32) (v : IVec S_ 32)
    (h : S4096x14x14x2.ReduceWindows ![1, 1, 1, 2] ![1, 1, 1, 1] ![0, 0, 0, 1] ![0, 0, 0, 0] S4096x14x14x2) (hu : 0 < S_.numel)
    (n : Fin 4096) (y x : Fin 14) :
    Host.reduceWindow IntOp.addi ![1, 1, 1, 2] ![1, 1, 1, 1] ![0, 0, 0, 1] ![0, 0, 0, 0] c v h hu (ix4 n y x (0 : Fin 2))
        = IntOp.addi (IntOp.addi (v (Shape.Idx.first hu)) (v (Shape.Idx.first hu))) (c (ix4 n y x 0))
    ∧ Host.reduceWindow IntOp.addi ![1, 1, 1, 2] ![1, 1, 1, 1] ![0, 0, 0, 1] ![0, 0, 0, 0] c v h hu (ix4 n y x (1 : Fin 2))
        = IntOp.addi (IntOp.addi (v (Shape.Idx.first hu)) (c (ix4 n y x 0))) (c (ix4 n y x 1)) := by
  constructor
  · unfold Host.reduceWindow
    show List.foldl _ _ [(0 : Fin 2), 1] = _
    simp only [List.foldl_cons, List.foldl_nil]
    refine congr (congrArg IntOp.addi (congrArg (IntOp.addi _) (dite_eq_of _ _ _ (fun hin => ?_) (fun _ => rfl))))
      (dite_eq_of _ _ _ (fun hin => ?_) (fun hn => ?_))
    · exfalso
      have h3 := (hin (3 : Fin 4)).1
      have h3' : (1 : Nat) ≤ 0 * 1 + 0 := h3
      omega
    · refine congrArg c (funext fun a => Fin.ext ?_)
      match a with
      | ⟨0, _⟩ => show n.val * 1 + 0 - 0 = n.val; omega
      | ⟨1, _⟩ => show y.val * 1 + 0 - 0 = y.val; omega
      | ⟨2, _⟩ => show x.val * 1 + 0 - 0 = x.val; omega
      | ⟨3, _⟩ => show 0 * 1 + 1 - 1 = 0; rfl
    · exfalso
      refine hn fun a => ?_
      match a with
      | ⟨0, _⟩ => exact ⟨Nat.zero_le _, by show n.val * 1 + 0 - 0 < 4096; omega⟩
      | ⟨1, _⟩ => exact ⟨Nat.zero_le _, by show y.val * 1 + 0 - 0 < 14; omega⟩
      | ⟨2, _⟩ => exact ⟨Nat.zero_le _, by show x.val * 1 + 0 - 0 < 14; omega⟩
      | ⟨3, _⟩ => exact ⟨by show (1 : Nat) ≤ 0 * 1 + 1; omega, by show 0 * 1 + 1 - 1 < 2; omega⟩
  · unfold Host.reduceWindow
    show List.foldl _ _ [(0 : Fin 2), 1] = _
    simp only [List.foldl_cons, List.foldl_nil]
    refine congr (congrArg IntOp.addi (congrArg (IntOp.addi _) (dite_eq_of _ _ _ (fun hin => ?_) (fun hn => ?_))))
      (dite_eq_of _ _ _ (fun hin => ?_) (fun hn => ?_))
    · refine congrArg c (funext fun a => Fin.ext ?_)
      match a with
      | ⟨0, _⟩ => show n.val * 1 + 0 - 0 = n.val; omega
      | ⟨1, _⟩ => show y.val * 1 + 0 - 0 = y.val; omega
      | ⟨2, _⟩ => show x.val * 1 + 0 - 0 = x.val; omega
      | ⟨3, _⟩ => show 1 * 1 + 0 - 1 = 0; rfl
    · exfalso
      refine hn fun a => ?_
      match a with
      | ⟨0, _⟩ => exact ⟨Nat.zero_le _, by show n.val * 1 + 0 - 0 < 4096; omega⟩
      | ⟨1, _⟩ => exact ⟨Nat.zero_le _, by show y.val * 1 + 0 - 0 < 14; omega⟩
      | ⟨2, _⟩ => exact ⟨Nat.zero_le _, by show x.val * 1 + 0 - 0 < 14; omega⟩
      | ⟨3, _⟩ => exact ⟨by show (1 : Nat) ≤ 1 * 1 + 0; omega, by show 1 * 1 + 0 - 1 < 2; omega⟩
    · refine congrArg c (funext fun a => Fin.ext ?_)
      match a with
      | ⟨0, _⟩ => show n.val * 1 + 0 - 0 = n.val; omega
      | ⟨1, _⟩ => show y.val * 1 + 0 - 0 = y.val; omega
      | ⟨2, _⟩ => show x.val * 1 + 0 - 0 = x.val; omega
      | ⟨3, _⟩ => show 1 * 1 + 1 - 1 = 1; rfl
    · exfalso
      refine hn fun a => ?_
      match a with
      | ⟨0, _⟩ => exact ⟨Nat.zero_le _, by show n.val * 1 + 0 - 0 < 4096; omega⟩
      | ⟨1, _⟩ => exact ⟨Nat.zero_le _, by show y.val * 1 + 0 - 0 < 14; omega⟩
      | ⟨2, _⟩ => exact ⟨Nat.zero_le _, by show x.val * 1 + 0 - 0 < 14; omega⟩
      | ⟨3, _⟩ => exact ⟨by show (1 : Nat) ≤ 1 * 1 + 1; omega, by show 1 * 1 + 1 - 1 < 2; omega⟩

/-- The running sum of a per-box array: at box 0 zero, zero and box 0; at box 1 zero, box 0 and box 1. -/
theorem cumsum_apply (c : IVec S4096x14x14x2 32) (n : Fin 4096) (y x : Fin 14) :
    cumsum c (ix4 n y x 0) = IntOp.addi (IntOp.addi 0#32 0#32) (c (ix4 n y x 0))
    ∧ cumsum c (ix4 n y x 1) = IntOp.addi (IntOp.addi 0#32 (c (ix4 n y x 0))) (c (ix4 n y x 1)) :=
  windowSum_read c (broadcastInDim S_ ![] bcast_S_S_ (constantI S_ 32 0#32))
    reduceWindows_S4096x14x14x2_S4096x14x14x2_w1s1p0_0_w1s1p0_0_w1s1p0_0_w2s1p1_0 h_S_ n y x

/-! ## The stages at an index -/

/-- Whether a cell has a marked box. -/
theorem hasObj_apply (o : IVec S4096x14x14x2 1) (n : Fin 4096) (y x : Fin 14) :
    hasObj o (ix3 n y x) = o (ix4 n y x 0) ||| o (ix4 n y x 1) := by
  have hR : S4096x14x14x2.Reduces [3] S4096x14x14 := by decide
  unfold hasObj
  rw [Host.reduce_eq_fold_single IntOp.ori o _ reducesTo_S4096x14x14x2_S4096x14x14_d3 hR h_S_ (ix3 n y x)]
  refine (fold_ori2 (o ∘ hR.lift (ix3 n y x))).trans ?_
  exact congrArg₂ (· ||| ·) (congrArg o (lift_obj hR n y x 0)) (congrArg o (lift_obj hR n y x 1))

/-- The first marked box, as a number, at box 0 … -/
theorem first_apply0 (o : IVec S4096x14x14x2 1) (n : Fin 4096) (y x : Fin 14) :
    first (F := Ideal) o (ix4 n y x 0) = Yolo.bit (o (ix4 n y x 0)) := by
  show Yolo.bit (IntOp.andi (o (ix4 n y x 0)) (IntOp.cmpi .eq (cumsum (extui 32 o natLt_1_32) (ix4 n y x 0)) 1#32)) = _
  rw [(cumsum_apply (extui 32 o natLt_1_32) n y x).1]
  exact congrArg Yolo.bit (first_word0 _)

/-- … and at box 1. -/
theorem first_apply1 (o : IVec S4096x14x14x2 1) (n : Fin 4096) (y x : Fin 14) :
    first (F := Ideal) o (ix4 n y x 1) = Yolo.bit (o (ix4 n y x 1) &&& (o (ix4 n y x 0) ^^^ 1#1)) := by
  show Yolo.bit (IntOp.andi (o (ix4 n y x 1)) (IntOp.cmpi .eq (cumsum (extui 32 o natLt_1_32) (ix4 n y x 1)) 1#32)) = _
  rw [(cumsum_apply (extui 32 o natLt_1_32) n y x).2]
  exact congrArg Yolo.bit (first_word1 _ _)

section AtIdeal
variable (X T : FVec Ideal S4096x14x14x30 .f32)

/-- A target confidence compared with one: the mark of the box. -/
theorem obj_conf (n : Fin 4096) (y x : Fin 14) (b : Fin 2) :
    obj (conf T) (ix4 n y x b) = Ideal.cmp .oeq (Yolo.cellOf T n y x (Yolo.chanC b)) Yolo.one := by
  show Ideal.cmp .oeq (conf T (ix4 n y x b)) (Ideal.ofBits .f32 0x3F800000#32) = _
  unfold conf
  rw [slice_conf]
  rfl

/-- The first-marked-box number of a cell's box is the specification's. -/
theorem first_obj_apply (n : Fin 4096) (y x : Fin 14) (b : Fin 2) :
    first (F := Ideal) (obj (conf T)) (ix4 n y x b) = Yolo.bit (Yolo.firstBit (Yolo.cellOf T n y x) b) := by
  match b with
  | ⟨0, _⟩ =>
    refine (first_apply0 _ n y x).trans (congrArg Yolo.bit ?_)
    exact obj_conf T n y x 0
  | ⟨1, _⟩ =>
    refine (first_apply1 _ n y x).trans (congrArg Yolo.bit ?_)
    rw [obj_conf T n y x 1, obj_conf T n y x 0]
    rfl

/-- Whether a cell has a marked box is the specification's. -/
theorem hasObj_obj_apply (n : Fin 4096) (y x : Fin 14) :
    hasObj (obj (conf T)) (ix3 n y x) = Yolo.hasBit (Yolo.cellOf T n y x) := by
  rw [hasObj_apply, obj_conf T n y x 0, obj_conf T n y x 1]
  rfl

/-- The squared distance of a box's first two coordinates is the specification's coordinate term. -/
theorem sqXY_apply (n : Fin 4096) (y x : Fin 14) (b : Fin 2) :
    sqXY (box X) (box T) (ix4 n y x b) = Yolo.xyTerm (Yolo.cellOf X n y x) (Yolo.cellOf T n y x) b := by
  have hR : S4096x14x14x2x2.Reduces [4] S4096x14x14x2 := by decide
  refine (Ideal.hostReduceAdd_single reducesTo_S4096x14x14x2x2_S4096x14x14x2_d4 hR _ _ (ix4 n y x b)).trans ?_
  show Ideal.ofBits .f32 0x00000000#32 + ∑ k : Fin 2, _ = _
  rw [Ideal.ofBits_zero_f32, zero_add]
  unfold Yolo.xyTerm
  refine Finset.sum_congr rfl fun k _ => ?_
  refine (congrArg _ (lift_box hR n y x b k)).trans ?_
  show (extractStridedSlice S4096x14x14x2x2 ![0, 0, 0, 0, 0] (box X) _ (ix5 n y x b k)
        - extractStridedSlice S4096x14x14x2x2 ![0, 0, 0, 0, 0] (box T) _ (ix5 n y x b k))
      * (extractStridedSlice S4096x14x14x2x2 ![0, 0, 0, 0, 0] (box X) _ (ix5 n y x b k)
        - extractStridedSlice S4096x14x14x2x2 ![0, 0, 0, 0, 0] (box T) _ (ix5 n y x b k)) = _
  rw [slice_box0, slice_box0]
  unfold box
  rw [box_read X n y x b _ (Yolo.chanXY b k) rfl, box_read T n y x b _ (Yolo.chanXY b k) rfl]
  rfl

/-- The squared distance of the square roots of a box's last two coordinates is the specification's size term. -/
theorem sqWH_apply (n : Fin 4096) (y x : Fin 14) (b : Fin 2) :
    sqWH (box X) (box T) (ix4 n y x b) = Yolo.whTerm (Yolo.cellOf X n y x) (Yolo.cellOf T n y x) b := by
  have hR : S4096x14x14x2x2.Reduces [4] S4096x14x14x2 := by decide
  refine (Ideal.hostReduceAdd_single reducesTo_S4096x14x14x2x2_S4096x14x14x2_d4 hR _ _ (ix4 n y x b)).trans ?_
  show Ideal.ofBits .f32 0x00000000#32 + ∑ k : Fin 2, _ = _
  rw [Ideal.ofBits_zero_f32, zero_add]
  unfold Yolo.whTerm
  refine Finset.sum_congr rfl fun k _ => ?_
  refine (congrArg _ (lift_box hR n y x b k)).trans ?_
  show (Ideal.sqrt (extractStridedSlice S4096x14x14x2x2 ![0, 0, 0, 0, 2] (box X) _ (ix5 n y x b k))
        - Ideal.sqrt (extractStridedSlice S4096x14x14x2x2 ![0, 0, 0, 0, 2] (box T) _ (ix5 n y x b k)))
      * (Ideal.sqrt (extractStridedSlice S4096x14x14x2x2 ![0, 0, 0, 0, 2] (box X) _ (ix5 n y x b k))
        - Ideal.sqrt (extractStridedSlice S4096x14x14x2x2 ![0, 0, 0, 0, 2] (box T) _ (ix5 n y x b k))) = _
  have hc : (Yolo.chanWH b k).val = 2 + 4 * b.val + (2 + k.val) := by
    show 4 + 4 * b.val + k.val = 2 + 4 * b.val + (2 + k.val); omega
  rw [slice_box2, slice_box2]
  unfold box
  rw [box_read X n y x b _ (Yolo.chanWH b k) hc, box_read T n y x b _ (Yolo.chanWH b k) hc]
  rfl

/-- The squared difference of a box's confidence is the specification's confidence term. -/
theorem sqConf_apply (n : Fin 4096) (y x : Fin 14) (b : Fin 2) :
    sqd (conf X) (conf T) (ix4 n y x b) = Yolo.confTerm (Yolo.cellOf X n y x) (Yolo.cellOf T n y x) b := by
  show (conf X (ix4 n y x b) - conf T (ix4 n y x b)) * (conf X (ix4 n y x b) - conf T (ix4 n y x b)) = _
  unfold conf
  rw [slice_conf, slice_conf]
  rfl

/-- The squared distance of a cell's class channels is the specification's class term. -/
theorem clsSq_apply (n : Fin 4096) (y x : Fin 14) :
    clsSq (cls X) (cls T) (ix3 n y x) = Yolo.clsTerm (Yolo.cellOf X n y x) (Yolo.cellOf T n y x) := by
  have hR : S4096x14x14x20.Reduces [3] S4096x14x14 := by decide
  refine (Ideal.hostReduceAdd_single reducesTo_S4096x14x14x20_S4096x14x14_d3 hR _ _ (ix3 n y x)).trans ?_
  show Ideal.ofBits .f32 0x00000000#32 + ∑ k : Fin 20, _ = _
  rw [Ideal.ofBits_zero_f32, zero_add]
  unfold Yolo.clsTerm
  refine Finset.sum_congr rfl fun k _ => ?_
  refine (congrArg _ (lift_cls hR n y x k)).trans ?_
  show (cls X (ix4 n y x k) - cls T (ix4 n y x k)) * (cls X (ix4 n y x k) - cls T (ix4 n y x k)) = _
  unfold cls
  rw [slice_cls, slice_cls]
  rfl

/-- A total over all cells and boxes from zero is the sum over every index. -/
theorem total4_apply (a : FVec Ideal S4096x14x14x2 .f32) (j : S_.Idx) : total4 a j = ∑ i : S4096x14x14x2.Idx, a i := by
  refine (Ideal.hostReduceAdd_total reducesTo_S4096x14x14x2_S_d0_1_2_3 (fun b => b.elim0) _ _ j).trans ?_
  show Ideal.ofBits .f32 0x00000000#32 + _ = _
  rw [Ideal.ofBits_zero_f32, zero_add]

/-- A total over all cells from zero is the sum over every index. -/
theorem total3_apply (a : FVec Ideal S4096x14x14 .f32) (j : S_.Idx) : total3 a j = ∑ i : S4096x14x14.Idx, a i := by
  refine (Ideal.hostReduceAdd_total reducesTo_S4096x14x14_S_d0_1_2 (fun b => b.elim0) _ _ j).trans ?_
  show Ideal.ofBits .f32 0x00000000#32 + _ = _
  rw [Ideal.ofBits_zero_f32, zero_add]

/-! ## The five totals -/

theorem total_xy (j : S_.Idx) :
    total4 (mulf (first (obj (conf T))) (sqXY (box X) (box T))) j = Yolo.sumXY X T := by
  rw [total4_apply]
  unfold Yolo.sumXY
  refine Finset.sum_congr rfl fun i _ => ?_
  obtain ⟨n, y, x, b, rfl⟩ : ∃ n y x b, i = ix4 n y x b := ⟨i 0, i 1, i 2, i 3, eq_ix4 i⟩
  show first (F := Ideal) (obj (conf T)) (ix4 n y x b) * sqXY (box X) (box T) (ix4 n y x b) = _
  rw [first_obj_apply, sqXY_apply]

theorem total_wh (j : S_.Idx) :
    total4 (mulf (first (obj (conf T))) (sqWH (box X) (box T))) j = Yolo.sumWH X T := by
  rw [total4_apply]
  unfold Yolo.sumWH
  refine Finset.sum_congr rfl fun i _ => ?_
  obtain ⟨n, y, x, b, rfl⟩ : ∃ n y x b, i = ix4 n y x b := ⟨i 0, i 1, i 2, i 3, eq_ix4 i⟩
  show first (F := Ideal) (obj (conf T)) (ix4 n y x b) * sqWH (box X) (box T) (ix4 n y x b) = _
  rw [first_obj_apply, sqWH_apply]

theorem total_conf (j : S_.Idx) :
    total4 (mulf (first (obj (conf T))) (sqd (conf X) (conf T))) j = Yolo.sumConf X T := by
  rw [total4_apply]
  unfold Yolo.sumConf
  refine Finset.sum_congr rfl fun i _ => ?_
  obtain ⟨n, y, x, b, rfl⟩ : ∃ n y x b, i = ix4 n y x b := ⟨i 0, i 1, i 2, i 3, eq_ix4 i⟩
  show first (F := Ideal) (obj (conf T)) (ix4 n y x b) * sqd (conf X) (conf T) (ix4 n y x b) = _
  rw [first_obj_apply, sqConf_apply]

theorem total_none (j : S_.Idx) :
    total4 (mulf (noObj (hasObj (obj (conf T)))) (sqd (conf X) (conf T))) j = Yolo.sumNone X T := by
  rw [total4_apply]
  unfold Yolo.sumNone
  refine Finset.sum_congr rfl fun i _ => ?_
  obtain ⟨n, y, x, b, rfl⟩ : ∃ n y x b, i = ix4 n y x b := ⟨i 0, i 1, i 2, i 3, eq_ix4 i⟩
  show noObj (F := Ideal) (hasObj (obj (conf T))) (ix4 n y x b) * sqd (conf X) (conf T) (ix4 n y x b) = _
  unfold noObj
  rw [bcast_cell, sqConf_apply]
  show Yolo.bit (~~~(hasObj (obj (conf T)) (ix3 n y x))) * _ = _
  rw [not_word, hasObj_obj_apply]

theorem total_cls (j : S_.Idx) :
    total3 (mulf (uitofp .f32 (hasObj (obj (conf T)))) (clsSq (cls X) (cls T))) j = Yolo.sumCls X T := by
  rw [total3_apply]
  unfold Yolo.sumCls
  refine Finset.sum_congr rfl fun i _ => ?_
  obtain ⟨n, y, x, rfl⟩ : ∃ n y x, i = ix3 n y x := ⟨i 0, i 1, i 2, eq_ix3 i⟩
  show Yolo.bit (hasObj (obj (conf T)) (ix3 n y x)) * clsSq (cls X) (cls T) (ix3 n y x) = _
  rw [hasObj_obj_apply, clsSq_apply]

/-! ## The result -/

/-- At the ideal values the reference's result is the specification's term-by-term arrangement. -/
theorem refOut_eq : refOut (F := Ideal) X T = fun _ => Yolo.refResult X T := by
  funext j
  show Ideal.div
      ((((Ideal.ofBits .f32 0x40A00000#32
              * (total4 (mulf (first (obj (conf T))) (sqXY (box X) (box T))) j
                + total4 (mulf (first (obj (conf T))) (sqWH (box X) (box T))) j))
            + Ideal.ofBits .f32 0x3F000000#32 * total4 (mulf (noObj (hasObj (obj (conf T)))) (sqd (conf X) (conf T))) j)
          + total4 (mulf (first (obj (conf T))) (sqd (conf X) (conf T))) j)
        + total3 (mulf (uitofp .f32 (hasObj (obj (conf T)))) (clsSq (cls X) (cls T))) j)
      (Ideal.ofBits .f32 0x45800000#32) = _
  rw [total_xy, total_wh, total_none, total_conf, total_cls]
  rfl

end AtIdeal

end Cert.ReferenceIdeal.RefValue

end
-- ==== Proof.LibSumIdx.lean ====
/-
  Sums over index sets of rank 3 and rank 4, by coordinates.

  An index of rank 3 (rank 4) is the same thing as the triple (quadruple) of its coordinates, so a sum over the
  whole index set is the iterated sum over the coordinate ranges. These continue the rank-2 statements
  `idxEquiv2` / `sum_idx2` of the index vocabulary, for any additive commutative monoid.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx

end
-- ==== Proof.Algebra.lean ====
/-
  The two arrangements of the YOLO-v1 loss are the same number.

  `kerResult` adds up the whole loss of a cell, cell by cell; `refResult` adds up each of the five kinds of term over
  the whole array and combines the five totals with the weights 5 and ½ afterwards. Both divide by the same count, so
  it is enough that the weighted combination of the five totals is the total of the cell losses.

  The entries of the arrays range over ALL extended reals, `⊤` and `⊥` included, and in the extended reals
  multiplication does not distribute over addition in general (`⊤ + ⊥ = ⊥`). It does when the factor is nonnegative
  and not `⊤`, whatever the summands are; the weights 5 and ½ and every bit (0 or 1) are such factors. So:
    · a nonnegative finite factor moves inside any finite sum (induction on the index set);
    · a sum of sums is the sum of the termwise sums (the extended reals are an additive commutative monoid);
    · a sum over the cell-and-box index set is the sum over the cells of the two boxes' terms, and a sum over the cell
      index set is the sum over the cells;
    · for a cell with no marked box, bit · (c₀ + c₁) = bit · c₀ + bit · c₁.
  No finiteness of the entries is assumed anywhere.
-/
import proofs.«149795_j16329465659932_2_alg».proof.Proof.Spec
import proofs.«149795_j16329465659932_2_alg».proof.Proof.LibSumIdx

noncomputable section

open scoped BigOperators

namespace Cert.Yolo

open Idealize.ShloMosaic Idealize.ShloMosaic.ValueIdx

/-! ## The factors: nonnegative and not `⊤` -/

/-- The weight `five` is the real number 5. -/
theorem five_eq : five = ((5 : ℝ) : EReal) := by
  unfold five
  simp [Ideal.ofBits, Ideal.ieee, -EReal.coe_mul] <;> norm_num

/-- The weight `half` is the real number ½. -/
theorem half_eq : half = ((1 / 2 : ℝ) : EReal) := by
  unfold half
  simp [Ideal.ofBits, Ideal.ieee, -EReal.coe_mul] <;> norm_num

/-- 5 is nonnegative. -/
theorem five_nonneg : 0 ≤ five := by
  rw [five_eq]; exact EReal.coe_nonneg.mpr (by norm_num)
/-- 5 is not `⊤`. -/
theorem five_ne_top : five ≠ ⊤ := by
  rw [five_eq]; exact EReal.coe_ne_top _
/-- ½ is nonnegative. -/
theorem half_nonneg : 0 ≤ half := by
  rw [half_eq]; exact EReal.coe_nonneg.mpr (by norm_num)
/-- ½ is not `⊤`. -/
theorem half_ne_top : half ≠ ⊤ := by
  rw [half_eq]; exact EReal.coe_ne_top _
/-- A bit, 0 or 1, is nonnegative. -/
theorem bit_nonneg (p : BitVec 1) : 0 ≤ bit p := by
  unfold bit; exact EReal.coe_nonneg.mpr (Nat.cast_nonneg _)
/-- A bit, 0 or 1, is not `⊤`. -/
theorem bit_ne_top (p : BitVec 1) : bit p ≠ ⊤ := by
  unfold bit; exact EReal.coe_ne_top _

/-! ## A nonnegative finite factor moves inside a finite sum -/

/-- For `0 ≤ c ≠ ⊤`, `c * ∑ f = ∑ c * f` over any finite index set and ANY extended-real summands: induction on the
    index set, each step the distributivity `c * (u + v) = c * u + c * v` that holds for such a factor. -/
theorem mul_sum_of_nonneg_of_ne_top {ι : Type*} (s : Finset ι) (c : EReal) (h0 : 0 ≤ c) (ht : c ≠ ⊤)
    (f : ι → EReal) : c * ∑ i ∈ s, f i = ∑ i ∈ s, c * f i := by
  classical
  refine Finset.induction_on s ?_ ?_
  · rw [Finset.sum_empty, Finset.sum_empty, mul_zero]
  · intro a s ha ih
    rw [Finset.sum_insert ha, Finset.sum_insert ha, EReal.left_distrib_of_nonneg_of_ne_top h0 ht, ih]

/-! ## Sums over the cells -/

/-- The sum of a quantity of a cell over all 4096 × 14 × 14 cells. -/
def sum3 (g : Fin 4096 → Fin 14 → Fin 14 → EReal) : EReal :=
  ∑ n : Fin 4096, ∑ y : Fin 14, ∑ x : Fin 14, g n y x

/-- The sum over the cells of a sum of two quantities is the sum of the two sums over the cells. -/
theorem sum3_add (g h : Fin 4096 → Fin 14 → Fin 14 → EReal) :
    sum3 (fun n y x => g n y x + h n y x) = sum3 g + sum3 h := by
  unfold sum3
  simp only [Finset.sum_add_distrib]

/-- A nonnegative finite factor moves inside the sum over the cells. -/
theorem mul_sum3 (c : EReal) (h0 : 0 ≤ c) (ht : c ≠ ⊤) (g : Fin 4096 → Fin 14 → Fin 14 → EReal) :
    c * sum3 g = sum3 (fun n y x => c * g n y x) := by
  unfold sum3
  rw [mul_sum_of_nonneg_of_ne_top _ c h0 ht]
  refine Finset.sum_congr rfl fun n _ => ?_
  rw [mul_sum_of_nonneg_of_ne_top _ c h0 ht]
  refine Finset.sum_congr rfl fun y _ => ?_
  rw [mul_sum_of_nonneg_of_ne_top _ c h0 ht]

/-- The weighted combination of five quantities, summed over the cells, is the weighted combination of their five
    sums over the cells, when the two weights are nonnegative and finite. -/
theorem sum3_combination (c d : EReal) (hc0 : 0 ≤ c) (hct : c ≠ ⊤) (hd0 : 0 ≤ d) (hdt : d ≠ ⊤)
    (A B N C K : Fin 4096 → Fin 14 → Fin 14 → EReal) :
    sum3 (fun n y x => (((c * (A n y x + B n y x)) + d * N n y x) + C n y x) + K n y x)
      = (((c * (sum3 A + sum3 B)) + d * sum3 N) + sum3 C) + sum3 K := by
  rw [sum3_add (fun n y x => ((c * (A n y x + B n y x)) + d * N n y x) + C n y x) K,
    sum3_add (fun n y x => (c * (A n y x + B n y x)) + d * N n y x) C,
    sum3_add (fun n y x => c * (A n y x + B n y x)) (fun n y x => d * N n y x),
    ← mul_sum3 c hc0 hct (fun n y x => A n y x + B n y x), ← mul_sum3 d hd0 hdt N, sum3_add A B]

/-! ## The five quantities of a cell -/

section Cells
variable (X T : SA.Idx → EReal) (n : Fin 4096) (y x : Fin 14)

/-- The coordinate term of the responsible box of cell (n, y, x). -/
def cXY : EReal :=
  bit (firstBit (cellOf T n y x) 0) * xyTerm (cellOf X n y x) (cellOf T n y x) 0
    + bit (firstBit (cellOf T n y x) 1) * xyTerm (cellOf X n y x) (cellOf T n y x) 1
/-- The size term of the responsible box of cell (n, y, x). -/
def cWH : EReal :=
  bit (firstBit (cellOf T n y x) 0) * whTerm (cellOf X n y x) (cellOf T n y x) 0
    + bit (firstBit (cellOf T n y x) 1) * whTerm (cellOf X n y x) (cellOf T n y x) 1
/-- Both confidence terms of cell (n, y, x) when no box is marked. -/
def cNone : EReal :=
  bit (hasBit (cellOf T n y x) ^^^ 1#1)
    * (confTerm (cellOf X n y x) (cellOf T n y x) 0 + confTerm (cellOf X n y x) (cellOf T n y x) 1)
/-- The confidence term of the responsible box of cell (n, y, x). -/
def cConf : EReal :=
  bit (firstBit (cellOf T n y x) 0) * confTerm (cellOf X n y x) (cellOf T n y x) 0
    + bit (firstBit (cellOf T n y x) 1) * confTerm (cellOf X n y x) (cellOf T n y x) 1
/-- The class term of cell (n, y, x) when some box is marked. -/
def cCls : EReal :=
  bit (hasBit (cellOf T n y x)) * clsTerm (cellOf X n y x) (cellOf T n y x)

/-- The loss of a cell is the weighted combination of its five quantities (by definition). -/
theorem cellTerm_eq :
    cellTerm (cellOf X n y x) (cellOf T n y x)
      = (((five * (cXY X T n y x + cWH X T n y x)) + half * cNone X T n y x) + cConf X T n y x) + cCls X T n y x :=
  rfl

end Cells

section Totals
variable (X T : SA.Idx → EReal)

/-- The total of the cell losses, as a sum over the cells of the weighted combination. -/
theorem total_eq :
    total X T = sum3 (fun n y x =>
      (((five * (cXY X T n y x + cWH X T n y x)) + half * cNone X T n y x) + cConf X T n y x) + cCls X T n y x) := by
  unfold total sum3
  refine Finset.sum_congr rfl fun n _ => Finset.sum_congr rfl fun y _ => Finset.sum_congr rfl fun x _ => ?_
  exact cellTerm_eq X T n y x

/-! ## The five totals as sums over the cells

  A sum over the cell-and-box index set is the fourfold sum over image, row, column and box; the sum over the two
  boxes is the sum of the two boxes' terms. -/

/-- The coordinate total is the sum over the cells of the responsible box's coordinate term. -/
theorem sumXY_eq : sumXY X T = sum3 (cXY X T) := by
  unfold sumXY sum3
  refine (sum_idx4 _).trans ?_
  refine Finset.sum_congr rfl fun n _ => Finset.sum_congr rfl fun y _ => Finset.sum_congr rfl fun x _ => ?_
  refine (Fin.sum_univ_two _).trans ?_
  rfl

/-- The size total is the sum over the cells of the responsible box's size term. -/
theorem sumWH_eq : sumWH X T = sum3 (cWH X T) := by
  unfold sumWH sum3
  refine (sum_idx4 _).trans ?_
  refine Finset.sum_congr rfl fun n _ => Finset.sum_congr rfl fun y _ => Finset.sum_congr rfl fun x _ => ?_
  refine (Fin.sum_univ_two _).trans ?_
  rfl

/-- The confidence total is the sum over the cells of the responsible box's confidence term. -/
theorem sumConf_eq : sumConf X T = sum3 (cConf X T) := by
  unfold sumConf sum3
  refine (sum_idx4 _).trans ?_
  refine Finset.sum_congr rfl fun n _ => Finset.sum_congr rfl fun y _ => Finset.sum_congr rfl fun x _ => ?_
  refine (Fin.sum_univ_two _).trans ?_
  rfl

/-- The no-object total is the sum over the cells of the no-object term: within a cell the bit multiplies each of
    the two confidence terms, and a bit distributes over their sum. -/
theorem sumNone_eq : sumNone X T = sum3 (cNone X T) := by
  unfold sumNone sum3
  refine (sum_idx4 _).trans ?_
  refine Finset.sum_congr rfl fun n _ => Finset.sum_congr rfl fun y _ => Finset.sum_congr rfl fun x _ => ?_
  refine (Fin.sum_univ_two _).trans ?_
  show bit (hasBit (cellOf T n y x) ^^^ 1#1) * confTerm (cellOf X n y x) (cellOf T n y x) 0
      + bit (hasBit (cellOf T n y x) ^^^ 1#1) * confTerm (cellOf X n y x) (cellOf T n y x) 1
    = bit (hasBit (cellOf T n y x) ^^^ 1#1)
      * (confTerm (cellOf X n y x) (cellOf T n y x) 0 + confTerm (cellOf X n y x) (cellOf T n y x) 1)
  exact (EReal.left_distrib_of_nonneg_of_ne_top (bit_nonneg _) (bit_ne_top _) _ _).symm

/-- The class total is the sum over the cells of the class term. -/
theorem sumCls_eq : sumCls X T = sum3 (cCls X T) := by
  unfold sumCls sum3
  refine (sum_idx3 _).trans ?_
  refine Finset.sum_congr rfl fun n _ => Finset.sum_congr rfl fun y _ => Finset.sum_congr rfl fun x _ => ?_
  rfl

/-! ## The two arrangements agree -/

/-- The weighted combination of the five totals is the total of the cell losses. -/
theorem combination_eq_total :
    (((five * (sumXY X T + sumWH X T)) + half * sumNone X T) + sumConf X T) + sumCls X T = total X T := by
  rw [sumXY_eq, sumWH_eq, sumNone_eq, sumConf_eq, sumCls_eq, total_eq]
  exact (sum3_combination five half five_nonneg five_ne_top half_nonneg half_ne_top
    (cXY X T) (cWH X T) (cNone X T) (cConf X T) (cCls X T)).symm

end Totals

/-- Term by term and cell by cell give the same loss, for arrays of arbitrary extended reals. -/
theorem refResult_eq_kerResult (X T : SA.Idx → EReal) : refResult X T = kerResult X T := by
  unfold refResult kerResult
  rw [combination_eq_total X T]

end Cert.Yolo

end
-- ==== Proof.lean ====
/-
  The YOLO-v1 loss kernel against its reference, over the extended reals.

  The kernel streams the two arrays in 32 blocks of 128 images; each grid point adds the sum of its block's cell
  losses to a 1×1 accumulator, and the host divides the final sum by 4096. The reference sums each of the five kinds
  of term of the loss over the whole array and combines the five totals. Both are the one number of the specification
  (`Cert.Yolo.kerResult`, `Cert.Yolo.refResult`), and the two arrangements are equal because a nonnegative real constant
  distributes over sums of arbitrary extended reals, sums of extended reals may be reordered, and a mark is 0 or 1; no
  finiteness of the inputs is used. The ideal pass rewrote nothing in the kernel, so its idealization is its own text.
-/
import proofs.«149795_j16329465659932_2_alg».proof.Defs
import proofs.«149795_j16329465659932_2_alg».proof.Proof.Gen.Kernel
import proofs.«149795_j16329465659932_2_alg».proof.Proof.Gen.Kernel.Frame
import proofs.«149795_j16329465659932_2_alg».proof.Proof.Gen.KernelIdeal
import proofs.«149795_j16329465659932_2_alg».proof.Proof.Gen.KernelIdeal.Frame
import proofs.«149795_j16329465659932_2_alg».proof.Proof.Gen.ReferenceIdeal
import proofs.«149795_j16329465659932_2_alg».proof.Proof.Gen.Pre_finite_inputs
import proofs.«149795_j16329465659932_2_alg».proof.Proof.KerTotal
import proofs.«149795_j16329465659932_2_alg».proof.Proof.RefRead
import proofs.«149795_j16329465659932_2_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end at the loss of the specification: the kernel cell by cell, the reference term by term. -/
theorem algebraic : Cert.algebraic_KernelIdeal_ReferenceIdeal := by
  intro m ρ m' ρ' _ hagree
  refine ⟨fun c => Cert.KernelIdeal.Val.out m c, Cert.KernelIdeal.Val.run (F := Ideal) m ρ, ?_⟩
  refine (θ_run Cert.ReferenceIdeal.defs _ _).mono (fun _ h c => ⟨(h c).1.trans ?_, (h c).2⟩)
    (Cert.ReferenceIdeal.RefValue.run (F := Ideal) m' ρ')
  show _ = Cert.KernelIdeal.Val.out m c
  rw [(hagree c).1, (hagree c).2, Cert.ReferenceIdeal.RefValue.refOut_eq, Cert.KernelIdeal.Val.out_eq]
  funext _
  exact Cert.Yolo.refResult_eq_kerResult _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
